-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v44)) (v1 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_v59) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S64x64 : Shape := ⟨2, ![64, 64]⟩
abbrev S64 : Shape := ⟨1, ![64]⟩
abbrev S1600000 : Shape := ⟨1, ![1600000]⟩
abbrev S800000 : Shape := ⟨1, ![800000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1600000 : S_.BroadcastsInDim S1600000 (![] : Fin 0 → Fin S1600000.rank)
  reducesTo_S1600000_S_d0 : S1600000.ReducesTo [0] S_
  bcast_S_S800000 : S_.BroadcastsInDim S800000 (![] : Fin 0 → Fin S800000.rank)
  reducesTo_S800000_S_d0 : S800000.ReducesTo [0] S_

variable [Facts]

def fn_part3 {F : FTy → Type} [FloatOps F] (main_arg15 : FVec F S800000 .f32) (main_v48 : IVec S_ 1) (main_v49 : FVec F S1600000 .f32) (main_v50 : FVec F S1600000 .f32) : IVec S_ 1 :=
  let main_v51 : IVec S1600000 1 := cmpf .olt main_v49 main_v50
  let main_c_19 : IVec S_ 1 := constantI S_ 1 1#1
  let main_v52 : IVec S_ 1 := (fun x v => Host.reduce IntOp.andi x v reducesTo_S1600000_S_d0 h_S_) main_v51 main_c_19
  let main_v53 : IVec S_ 1 := andi main_v48 main_v52
  let main_v54 : FVec F S800000 .f32 := Host.absf main_arg15
  let main_cst_20 : FVec F S_ .f32 := constant S_ .f32 0x7F800000#32
  let main_v55 : FVec F S800000 .f32 := broadcastInDim S800000 ![] bcast_S_S800000 main_cst_20
  let main_v56 : IVec S800000 1 := cmpf .olt main_v54 main_v55
  let main_c_21 : IVec S_ 1 := constantI S_ 1 1#1
  let main_v57 : IVec S_ 1 := (fun x v => Host.reduce IntOp.andi x v reducesTo_S800000_S_d0 h_S_) main_v56 main_c_21
  let main_v58 : IVec S_ 1 := andi main_v53 main_v57
  main_v58

def fn_part2 {F : FTy → Type} [FloatOps F] (main_arg7 : FVec F S64 .f32) (main_arg8 : FVec F S64x64 .f32) (main_arg9 : FVec F S64 .f32) (main_arg12 : FVec F S1600000 .f32) (main_arg15 : FVec F S800000 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S1600000 .f32 := Host.absf main_arg12
  let main_cst_18 : FVec F S_ .f32 := constant S_ .f32 0x7F800000#32
  let main_v50 : FVec F S1600000 .f32 := broadcastInDim S1600000 ![] bcast_S_S1600000 main_cst_18
  fn_part3 (F := F) main_arg15 main_v48 main_v49 main_v50

def fn_part1 {F : FTy → Type} [FloatOps F] (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg12 : FVec F S1600000 .f32) (main_arg15 : FVec F S800000 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg12 main_arg15 main_v33

def fn {F : FTy → Type} [FloatOps F] (main_arg0 : FVec F S100000x64 .f32) (main_arg1 : FVec F S50000x64 .f32) (main_arg2 : FVec F S64x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : IVec S1600000 32) (main_arg11 : IVec S1600000 32) (main_arg12 : FVec F S1600000 .f32) (main_arg13 : IVec S800000 32) (main_arg14 : IVec S800000 32) (main_arg15 : FVec F S800000 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg12 main_arg15 main_v13 main_v16
-- ==== Kernel.lean ====
abbrev S100000x64 : Shape := ⟨2, ![100000, 64]⟩
abbrev S50000x64 : Shape := ⟨2, ![50000, 64]⟩
abbrev S64x64 : Shape := ⟨2, ![64, 64]⟩
abbrev S64 : Shape := ⟨1, ![64]⟩
abbrev S1600000 : Shape := ⟨1, ![1600000]⟩
abbrev S800000 : Shape := ⟨1, ![800000]⟩
abbrev S1600000x1 : Shape := ⟨2, ![1600000, 1]⟩
abbrev S_ : Shape := ⟨0, ![]⟩
abbrev S1600000x64 : Shape := ⟨2, ![1600000, 64]⟩
abbrev S1x64 : Shape := ⟨2, ![1, 64]⟩
abbrev S10000x64 : Shape := ⟨2, ![10000, 64]⟩
abbrev S10000 : Shape := ⟨1, ![10000]⟩
abbrev S10000x1 : Shape := ⟨2, ![10000, 1]⟩
abbrev S800000x1 : Shape := ⟨2, ![800000, 1]⟩
abbrev S800000x64 : Shape := ⟨2, ![800000, 64]⟩

abbrev nBuf : Space → Nat
  | .hbm => 88
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S1600000, .i32⟩
  | .hbm, ⟨11, _⟩ => ⟨S1600000, .i32⟩
  | .hbm, ⟨12, _⟩ => ⟨S1600000, .f32⟩
  | .hbm, ⟨13, _⟩ => ⟨S800000, .i32⟩
  | .hbm, ⟨14, _⟩ => ⟨S800000, .i32⟩
  | .hbm, ⟨15, _⟩ => ⟨S800000, .f32⟩
  | .hbm, ⟨16, _⟩ => ⟨S1600000x1, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x64, .f32⟩
  | .hbm, ⟨26, _⟩ => ⟨S1600000x64, .f32⟩
  | .hbm, ⟨27, _⟩ => ⟨S1600000x64, .f32⟩
  | .hbm, ⟨28, _⟩ => ⟨S_, .f32⟩
  | .hbm, ⟨29, _⟩ => ⟨S100000x64, .f32⟩
  | .hbm, ⟨30, _⟩ => ⟨S1600000x1, .i32⟩
  | .hbm, ⟨31, _⟩ => ⟨S100000x64, .f32⟩
  | .hbm, ⟨32, _⟩ => ⟨S1x64, .f32⟩
  | .hbm, ⟨33, _⟩ => ⟨S100000x64, .f32⟩
  | .hbm, ⟨34, _⟩ => ⟨S800000x1, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x64, .f32⟩
  | .hbm, ⟨44, _⟩ => ⟨S800000x64, .f32⟩
  | .hbm, ⟨45, _⟩ => ⟨S800000x64, .f32⟩
  | .hbm, ⟨46, _⟩ => ⟨S_, .f32⟩
  | .hbm, ⟨47, _⟩ => ⟨S50000x64, .f32⟩
  | .hbm, ⟨48, _⟩ => ⟨S800000x1, .i32⟩
  | .hbm, ⟨49, _⟩ => ⟨S50000x64, .f32⟩
  | .hbm, ⟨50, _⟩ => ⟨S1x64, .f32⟩
  | .hbm, ⟨51, _⟩ => ⟨S50000x64, .f32⟩
  | .hbm, ⟨52, _⟩ => ⟨S1600000x1, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x64, .f32⟩
  | .hbm, ⟨62, _⟩ => ⟨S1600000x64, .f32⟩
  | .hbm, ⟨63, _⟩ => ⟨S1600000x64, .f32⟩
  | .hbm, ⟨64, _⟩ => ⟨S_, .f32⟩
  | .hbm, ⟨65, _⟩ => ⟨S100000x64, .f32⟩
  | .hbm, ⟨66, _⟩ => ⟨S1600000x1, .i32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S800000x1, .f32⟩
  | .hbm, ⟨71, _⟩ => ⟨S_, .i32⟩
  | .hbm, ⟨72, _⟩ => ⟨S800000, .i32⟩
  | .hbm, ⟨73, _⟩ => ⟨S800000, .i1⟩
  | .hbm, ⟨74, _⟩ => ⟨S_, .i32⟩
  | .hbm, ⟨75, _⟩ => ⟨S800000, .i32⟩
  | .hbm, ⟨76, _⟩ => ⟨S800000, .i32⟩
  | .hbm, ⟨77, _⟩ => ⟨S800000, .i32⟩
  | .hbm, ⟨78, _⟩ => ⟨S800000x1, .i32⟩
  | .hbm, ⟨79, _⟩ => ⟨S800000x64, .f32⟩
  | .hbm, ⟨80, _⟩ => ⟨S800000x64, .f32⟩
  | .hbm, ⟨81, _⟩ => ⟨S800000x64, .f32⟩
  | .hbm, ⟨82, _⟩ => ⟨S_, .f32⟩
  | .hbm, ⟨83, _⟩ => ⟨S50000x64, .f32⟩
  | .hbm, ⟨84, _⟩ => ⟨S800000x1, .i32⟩
  | .hbm, ⟨85, _⟩ => ⟨S50000x64, .f32⟩
  | .hbm, ⟨86, _⟩ => ⟨S1x64, .f32⟩
  | .hbm, ⟨87, _⟩ => ⟨S50000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S64x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S64x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S64x64, .f32⟩
  | .local _ .vmem, ⟨21, _⟩ => ⟨S1x64, .f32⟩
  | .local _ .vmem, ⟨22, _⟩ => ⟨S10000x64, .f32⟩
  | .local _ .vmem, ⟨23, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c_1 : Ref sig .tc := ⟨.hbm, 35, rfl⟩
abbrev main_v16 : Ref sig .tc := ⟨.hbm, 36, rfl⟩
abbrev main_v17 : Ref sig .tc := ⟨.hbm, 37, rfl⟩
abbrev main_c_2 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_4 : Ref sig .tc := ⟨.hbm, 53, rfl⟩
abbrev main_v31 : Ref sig .tc := ⟨.hbm, 54, rfl⟩
abbrev main_v32 : Ref sig .tc := ⟨.hbm, 55, rfl⟩
abbrev main_c_5 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_6 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_7 : Ref sig .tc := ⟨.hbm, 71, rfl⟩
abbrev main_v46 : Ref sig .tc := ⟨.hbm, 72, rfl⟩
abbrev main_v47 : Ref sig .tc := ⟨.hbm, 73, rfl⟩
abbrev main_c_8 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_9 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  transposes_S64x64_p1_0_S64x64 : S64x64.Transposes [1, 0] S64x64
  broadcasts_S1x64_S10000x64 : S1x64.Broadcasts S10000x64
  reduces_S10000x64_S10000 : S10000x64.Reduces [1] S10000
  shapeCasts_S10000_S10000x1 : S10000.ShapeCasts S10000x1
  broadcasts_S10000x1_S10000x64 : S10000x1.Broadcasts S10000x64
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S50000x64.size a
  hwx1_3 : ∀ i : grid1.Coords, EltTy.bits .f32 = 32 ∨ (Rect.block (s := S50000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S50000x64.size a
  hwx3_3 : ∀ i : grid3.Coords, EltTy.bits .f32 = 32 ∨ (Rect.block (s := S50000x64) S10000x64.size (cc3_transform_3 i) (hinb3_3 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_v12) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v42) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v57) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v59) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S64x64 : Shape := ⟨2, ![64, 64]⟩
abbrev S64 : Shape := ⟨1, ![64]⟩
abbrev S1600000 : Shape := ⟨1, ![1600000]⟩
abbrev S800000 : Shape := ⟨1, ![800000]⟩
abbrev S1600000x1 : Shape := ⟨2, ![1600000, 1]⟩
abbrev S_ : Shape := ⟨0, ![]⟩
abbrev S1600000x64 : Shape := ⟨2, ![1600000, 64]⟩
abbrev S1x64 : Shape := ⟨2, ![1, 64]⟩
abbrev S100000 : Shape := ⟨1, ![100000]⟩
abbrev S100000x1 : Shape := ⟨2, ![100000, 1]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩

abbrev nBuf : Space → Nat
  | .hbm => 172
  | .vmem => 0
  | .smem => 0
  | _ => 0

abbrev hbmTy0_0 (i : Nat) : BufTy := match i % 128 with
  | 0 => ⟨S100000x64, .f32⟩
  | 1 => ⟨S50000x64, .f32⟩
  | 2 => ⟨S64x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S1600000, .i32⟩
  | 11 => ⟨S1600000, .i32⟩
  | 12 => ⟨S1600000, .f32⟩
  | 13 => ⟨S800000, .i32⟩
  | 14 => ⟨S800000, .i32⟩
  | 15 => ⟨S800000, .f32⟩
  | 16 => ⟨S1600000x1, .f32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x64, .f32⟩
  | 26 => ⟨S1600000x64, .f32⟩
  | 27 => ⟨S1600000x64, .f32⟩
  | 28 => ⟨S_, .f32⟩
  | 29 => ⟨S100000x64, .f32⟩
  | 30 => ⟨S1600000x1, .i32⟩
  | 31 => ⟨S100000x64, .f32⟩
  | 32 => ⟨S64x64, .f32⟩
  | 33 => ⟨S100000x64, .f32⟩
  | 34 => ⟨S1x64, .f32⟩
  | 35 => ⟨S100000x64, .f32⟩
  | 36 => ⟨S100000x64, .f32⟩
  | 37 => ⟨S_, .f32⟩
  | 38 => ⟨S_, .f32⟩
  | 39 => ⟨S100000x64, .f32⟩
  | 40 => ⟨S100000x64, .i1⟩
  | 41 => ⟨S_, .f32⟩
  | 42 => ⟨S100000x64, .f32⟩
  | 43 => ⟨S100000x64, .f32⟩
  | 44 => ⟨S100000x64, .f32⟩
  | 45 => ⟨S100000x64, .f32⟩
  | 46 => ⟨S_, .f32⟩
  | 47 => ⟨S100000, .f32⟩
  | 48 => ⟨S100000x1, .f32⟩
  | 49 => ⟨S100000x1, .f32⟩
  | 50 => ⟨S_, .f32⟩
  | 51 => ⟨S100000x1, .f32⟩
  | 52 => ⟨S100000x1, .f32⟩
  | 53 => ⟨S100000x64, .f32⟩
  | 54 => ⟨S100000x64, .f32⟩
  | 55 => ⟨S800000x1, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x64, .f32⟩
  | 65 => ⟨S800000x64, .f32⟩
  | 66 => ⟨S800000x64, .f32⟩
  | 67 => ⟨S_, .f32⟩
  | 68 => ⟨S50000x64, .f32⟩
  | 69 => ⟨S800000x1, .i32⟩
  | 70 => ⟨S50000x64, .f32⟩
  | 71 => ⟨S64x64, .f32⟩
  | 72 => ⟨S50000x64, .f32⟩
  | 73 => ⟨S1x64, .f32⟩
  | 74 => ⟨S50000x64, .f32⟩
  | 75 => ⟨S50000x64, .f32⟩
  | 76 => ⟨S_, .f32⟩
  | 77 => ⟨S_, .f32⟩
  | 78 => ⟨S50000x64, .f32⟩
  | 79 => ⟨S50000x64, .i1⟩
  | 80 => ⟨S_, .f32⟩
  | 81 => ⟨S50000x64, .f32⟩
  | 82 => ⟨S50000x64, .f32⟩
  | 83 => ⟨S50000x64, .f32⟩
  | 84 => ⟨S50000x64, .f32⟩
  | 85 => ⟨S_, .f32⟩
  | 86 => ⟨S50000, .f32⟩
  | 87 => ⟨S50000x1, .f32⟩
  | 88 => ⟨S50000x1, .f32⟩
  | 89 => ⟨S_, .f32⟩
  | 90 => ⟨S50000x1, .f32⟩
  | 91 => ⟨S50000x1, .f32⟩
  | 92 => ⟨S50000x64, .f32⟩
  | 93 => ⟨S50000x64, .f32⟩
  | 94 => ⟨S1600000x1, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x64, .f32⟩
  | 104 => ⟨S1600000x64, .f32⟩
  | 105 => ⟨S1600000x64, .f32⟩
  | 106 => ⟨S_, .f32⟩
  | 107 => ⟨S100000x64, .f32⟩
  | 108 => ⟨S1600000x1, .i32⟩
  | 109 => ⟨S100000x64, .f32⟩
  | 110 => ⟨S64x64, .f32⟩
  | 111 => ⟨S100000x64, .f32⟩
  | 112 => ⟨S1x64, .f32⟩
  | 113 => ⟨S100000x64, .f32⟩
  | 114 => ⟨S100000x64, .f32⟩
  | 115 => ⟨S_, .f32⟩
  | 116 => ⟨S_, .f32⟩
  | 117 => ⟨S100000x64, .f32⟩
  | 118 => ⟨S100000x64, .i1⟩
  | 119 => ⟨S_, .f32⟩
  | 120 => ⟨S100000x64, .f32⟩
  | 121 => ⟨S100000x64, .f32⟩
  | 122 => ⟨S100000x64, .f32⟩
  | 123 => ⟨S100000x64, .f32⟩
  | 124 => ⟨S_, .f32⟩
  | 125 => ⟨S100000, .f32⟩
  | 126 => ⟨S100000x1, .f32⟩
  | 127 => ⟨S100000x1, .f32⟩
  | _ => ⟨S100000x64, .f32⟩

abbrev hbmTy0_1 (i : Nat) : BufTy := match i % 128 with
  | 0 => ⟨S_, .f32⟩
  | 1 => ⟨S100000x1, .f32⟩
  | 2 => ⟨S100000x1, .f32⟩
  | 3 => ⟨S100000x64, .f32⟩
  | 4 => ⟨S100000x64, .f32⟩
  | 5 => ⟨S800000x1, .f32⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S800000x64, .f32⟩
  | 15 => ⟨S800000x64, .f32⟩
  | 16 => ⟨S800000x64, .f32⟩
  | 17 => ⟨S_, .f32⟩
  | 18 => ⟨S50000x64, .f32⟩
  | 19 => ⟨S800000x1, .i32⟩
  | 20 => ⟨S50000x64, .f32⟩
  | 21 => ⟨S64x64, .f32⟩
  | 22 => ⟨S50000x64, .f32⟩
  | 23 => ⟨S1x64, .f32⟩
  | 24 => ⟨S50000x64, .f32⟩
  | 25 => ⟨S50000x64, .f32⟩
  | 26 => ⟨S_, .f32⟩
  | 27 => ⟨S_, .f32⟩
  | 28 => ⟨S50000x64, .f32⟩
  | 29 => ⟨S50000x64, .i1⟩
  | 30 => ⟨S_, .f32⟩
  | 31 => ⟨S50000x64, .f32⟩
  | 32 => ⟨S50000x64, .f32⟩
  | 33 => ⟨S50000x64, .f32⟩
  | 34 => ⟨S50000x64, .f32⟩
  | 35 => ⟨S_, .f32⟩
  | 36 => ⟨S50000, .f32⟩
  | 37 => ⟨S50000x1, .f32⟩
  | 38 => ⟨S50000x1, .f32⟩
  | 39 => ⟨S_, .f32⟩
  | 40 => ⟨S50000x1, .f32⟩
  | 41 => ⟨S50000x1, .f32⟩
  | 42 => ⟨S50000x64, .f32⟩
  | 43 => ⟨S50000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_1 : Ref sig .tc := ⟨.hbm, 37, rfl⟩
abbrev main_call0_cst : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v18 : Ref sig .tc := ⟨.hbm, 44, rfl⟩
abbrev main_v19 : Ref sig .tc := ⟨.hbm, 45, rfl⟩
abbrev main_cst_2 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_3 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_c_4 : Ref sig .tc := ⟨.hbm, 56, rfl⟩
abbrev main_v28 : Ref sig .tc := ⟨.hbm, 57, rfl⟩
abbrev main_v29 : Ref sig .tc := ⟨.hbm, 58, rfl⟩
abbrev main_c_5 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_6 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_7 : Ref sig .tc := ⟨.hbm, 76, rfl⟩
abbrev main_call1_cst : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_v45 : Ref sig .tc := ⟨.hbm, 83, rfl⟩
abbrev main_v46 : Ref sig .tc := ⟨.hbm, 84, rfl⟩
abbrev main_cst_8 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_cst_9 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_c_10 : Ref sig .tc := ⟨.hbm, 95, rfl⟩
abbrev main_v55 : Ref sig .tc := ⟨.hbm, 96, rfl⟩
abbrev main_v56 : Ref sig .tc := ⟨.hbm, 97, rfl⟩
abbrev main_c_11 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_cst_12 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_cst_13 : Ref sig .tc := ⟨.hbm, 115, rfl⟩
abbrev main_call2_cst : Ref sig .tc := ⟨.hbm, 116, rfl⟩
abbrev main_call2_v0 : Ref sig .tc := ⟨.hbm, 117, rfl⟩
abbrev main_call2_v1 : Ref sig .tc := ⟨.hbm, 118, rfl⟩
abbrev main_call2_v2 : Ref sig .tc := ⟨.hbm, 119, rfl⟩
abbrev main_call2_v3 : Ref sig .tc := ⟨.hbm, 120, rfl⟩
abbrev main_call2_v4 : Ref sig .tc := ⟨.hbm, 121, rfl⟩
abbrev main_v72 : Ref sig .tc := ⟨.hbm, 122, rfl⟩
abbrev main_v73 : Ref sig .tc := ⟨.hbm, 123, rfl⟩
abbrev main_cst_14 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_cst_15 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_c_16 : Ref sig .tc := ⟨.hbm, 134, rfl⟩
abbrev main_v82 : Ref sig .tc := ⟨.hbm, 135, rfl⟩
abbrev main_v83 : Ref sig .tc := ⟨.hbm, 136, rfl⟩
abbrev main_c_17 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_cst_18 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_cst_19 : Ref sig .tc := ⟨.hbm, 154, rfl⟩
abbrev main_call3_cst : Ref sig .tc := ⟨.hbm, 155, rfl⟩
abbrev main_call3_v0 : Ref sig .tc := ⟨.hbm, 156, rfl⟩
abbrev main_call3_v1 : Ref sig .tc := ⟨.hbm, 157, rfl⟩
abbrev main_call3_v2 : Ref sig .tc := ⟨.hbm, 158, rfl⟩
abbrev main_call3_v3 : Ref sig .tc := ⟨.hbm, 159, rfl⟩
abbrev main_call3_v4 : Ref sig .tc := ⟨.hbm, 160, rfl⟩
abbrev main_v99 : Ref sig .tc := ⟨.hbm, 161, rfl⟩
abbrev main_v100 : Ref sig .tc := ⟨.hbm, 162, rfl⟩
abbrev main_cst_20 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_cst_21 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S1x64_S50000x64_0_1 : S1x64.BroadcastsInDim S50000x64 (![0, 1] : Fin 2 → Fin S50000x64.rank)
  reducesTo_S50000x64_S50000_d1 : S50000x64.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KRun.lean ====
/-
  The run of the idealized kernel program with every buffer NAMED at its end: from any launch memory with zero
  counters, every weakly fair execution of @main terminates, nothing faulting, and every unscoped buffer of each core
  ends at the last segment boundary's contents — the fold through the four host stretches (each sparse product and
  bias reshape) and the four regions (each region's output array at what its ten or five grid points wrote back).
  The two results and the sixteen arguments are among those buffers.
-/
import proofs.«156571_j15977278341730_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

end Cert.KernelIdeal.KRun

end
-- ==== Proof.RowLayer.lean ====
/-
  One row of the dense half of a layer, as a function of the row `x` of the sparse product, the weight matrix `W`
  and the bias `b`:  y_q = Σ_k x_k · W[q, k] + b_q,  z_q = y_q if y_q ≥ 0 else f32(0.01) · y_q,
  out_q = z_q / max (√(Σ_k z_k²)) f32(1e-12)  — over the extended reals, every operation exact.
  Both programs compute exactly this on every row, so the certificate never needs an algebraic law beyond the
  identification of the two index-by-index readings with this one function.
-/
import Idealize.ShloMosaic.PureOps.Ideal
import Idealize.ShloMosaic.PureOps.Ideal.Laws
import Idealize.ShloMosaic.Lib.ValueIdx

noncomputable section

namespace Cert.RowLayer

open Idealize.ShloMosaic Idealize.ShloMosaic.ValueIdx

/-- `y_q = Σ_k x_k · W[q, k] + b_q`. -/
def affine (x : Fin 64 → EReal) (W : (⟨2, ![64, 64]⟩ : Shape).Idx → EReal) (b : Fin 64 → EReal) (q : Fin 64) : EReal :=
  (∑ k : Fin 64, x k * W (ix2 q k)) + b q

/-- The leaky rectifier: `y` where `y ≥ 0`, else `f32(0.01) · y`. -/
def leaky (y : EReal) : EReal :=
  Scalar.select (Ideal.cmp .oge y (Ideal.ofBits .f32 0x00000000#32)) y (Ideal.ofBits .f32 0x3C23D70A#32 * y)

/-- The divisor of a row: the larger of its Euclidean norm and `f32(1e-12)`. -/
def scale (z : Fin 64 → EReal) : EReal :=
  max (Ideal.sqrt (∑ k : Fin 64, z k * z k)) (Ideal.ofBits .f32 0x2B8CBCCC#32)

/-- One output entry of the dense half of a layer. -/
def row (x : Fin 64 → EReal) (W : (⟨2, ![64, 64]⟩ : Shape).Idx → EReal) (b : Fin 64 → EReal) (q : Fin 64) : EReal :=
  Ideal.div (leaky (affine x W b q)) (scale fun k => leaky (affine x W b k))

/-- The dense half of a layer applied to every one of 100000 rows, the bias given as a one-row matrix. -/
def rowsU (X : (⟨2, ![100000, 64]⟩ : Shape).Idx → EReal) (W : (⟨2, ![64, 64]⟩ : Shape).Idx → EReal)
    (B : (⟨2, ![1, 64]⟩ : Shape).Idx → EReal) : (⟨2, ![100000, 64]⟩ : Shape).Idx → EReal :=
  fun i => row (fun k => X (ix2 (i 0) k)) W (fun k => B (ix2 (0 : Fin 1) k)) (i 1)

theorem rowsU_apply (X : (⟨2, ![100000, 64]⟩ : Shape).Idx → EReal) (W : (⟨2, ![64, 64]⟩ : Shape).Idx → EReal)
    (B : (⟨2, ![1, 64]⟩ : Shape).Idx → EReal) (r : Fin 100000) (q : Fin 64) :
    rowsU X W B (ix2 r q) = row (fun k => X (ix2 r k)) W (fun k => B (ix2 (0 : Fin 1) k)) q := rfl

/-- The same on 50000 rows. -/
def rowsI (X : (⟨2, ![50000, 64]⟩ : Shape).Idx → EReal) (W : (⟨2, ![64, 64]⟩ : Shape).Idx → EReal)
    (B : (⟨2, ![1, 64]⟩ : Shape).Idx → EReal) : (⟨2, ![50000, 64]⟩ : Shape).Idx → EReal :=
  fun i => row (fun k => X (ix2 (i 0) k)) W (fun k => B (ix2 (0 : Fin 1) k)) (i 1)

theorem rowsI_apply (X : (⟨2, ![50000, 64]⟩ : Shape).Idx → EReal) (W : (⟨2, ![64, 64]⟩ : Shape).Idx → EReal)
    (B : (⟨2, ![1, 64]⟩ : Shape).Idx → EReal) (r : Fin 50000) (q : Fin 64) :
    rowsI X W B (ix2 r q) = row (fun k => X (ix2 r k)) W (fun k => B (ix2 (0 : Fin 1) k)) q := rfl

end Cert.RowLayer

end
-- ==== Proof.LibLayout.lean ====
/-
  Layout operations of small shapes read at an index, in the forms a row-wise normalisation needs: a vector made a
  column and a column spread over the columns of a matrix (the two halves of a `keepdims` reduction's broadcast), a
  row vector made a one-row matrix and spread over the rows, and a scalar spread over any shape. Each says which
  operand entry the result reads at `(p, c)`.
-/
import Idealize.ShloMosaic.Lib.ValueIdx
import Idealize.ShloMosaic.Lib.ValueLayout
import Idealize.ShloMosaic.Lib.Pipeline.Value

namespace Cert.LibLayout

open Idealize.ShloMosaic Idealize.ShloMosaic.ValueIdx

variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A scalar spread over any shape (`broadcast_in_dim` with no axis) reads the scalar everywhere. -/
theorem broadcastInDim_scalar_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun ax => ax.elim0

/-- A vector `[b]` made the one row of `[1, b]` (`broadcast_in_dim` on axis 1) reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A one-row matrix `[1, b]` spread over `a` rows (`broadcast_in_dim` on axes 0, 1) reads, at `(p, c)`, the row at `c`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` made a column `[a, 1]` (`broadcast_in_dim` on axis 0) reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A column `[a, 1]` spread over `b` columns (`broadcast_in_dim` on axes 0, 1) reads, at `(p, c)`, the column's entry of row `p`. -/
theorem broadcastInDim_a1_ab_apply {a b : ℕ} (x : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

end Cert.LibLayout
-- ==== Proof.BodyValue.lean ====
/-
  The kernel body's stored value, read at an index. The body loads a block `x` of 10000 rows of the sparse product,
  the whole weight matrix `W` and the bias as a one-row matrix, and stores, at row `p` and column `q`,
  the dense half of a layer of row `p`: `y = x[p, :] · Wᵀ + b`, the leaky rectifier of `y`, divided by the
  larger of that row's Euclidean norm and f32(1e-12). Nothing in row `p` of the result depends on another row of
  the block.
-/
import proofs.«156571_j15977278341730_1_alg».proof.Proof.Gen.KernelIdeal.Skeleton
import proofs.«156571_j15977278341730_1_alg».proof.Proof.RowLayer
import proofs.«156571_j15977278341730_1_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValue

open Cert.KernelIdeal Idealize.ShloMosaic Idealize.ShloMosaic.ValueIdx Idealize.SL.Sem
open Facts₀ Facts

/-- The affine part of the body: the block times the transposed weights, plus the bias row. -/
def kAffine (x0 : FVec Ideal S10000x64 .f32) (w : FVec Ideal S64x64 .f32) (b2 : FVec Ideal S1x64 .f32) : FVec Ideal S10000x64 .f32 :=
  addf (matmul dot_S10000x64_S64x64_S10000x64_1_0_0_1_n_n none (shapeCast S10000x64 x0 shapeCasts_S10000x64_S10000x64 : FVec Ideal S10000x64 .f32)
      (transpose S64x64 [1, 0] w transposes_S64x64_p1_0_S64x64 : FVec Ideal S64x64 .f32) (constant S10000x64 .f32 0x00000000#32))
    (broadcastTo S10000x64 (shapeCast S1x64 b2 shapeCasts_S1x64_S1x64 : FVec Ideal S1x64 .f32) broadcasts_S1x64_S10000x64)

/-- The leaky rectifier of the body, entry by entry. -/
def kLeaky (v8 : FVec Ideal S10000x64 .f32) : FVec Ideal S10000x64 .f32 :=
  select (cmpf .oge v8 (broadcast S10000x64 (Scalar.ofBits .f32 0x00000000#32))) v8
    (mulf (broadcast S10000x64 (Scalar.ofBits .f32 0x3C23D70A#32)) v8)

/-- The row normalisation of the body. -/
def kNorm (v13 : FVec Ideal S10000x64 .f32) : FVec Ideal S10000x64 .f32 :=
  divf v13 (broadcastTo S10000x64
    (maximumf (sqrt (shapeCast S10000x1 (multiReduction .add [1] S10000 (mulf v13 v13) 0x00000000#32 reduces_S10000x64_S10000 (.inl rfl) rfl) shapeCasts_S10000_S10000x1))
      (broadcast S10000x1 (Scalar.ofBits .f32 0x2B8CBCCC#32))) broadcasts_S10000x1_S10000x64)

/-- The stored value is the three parts composed. -/
theorem pay_eq (x0 : FVec Ideal S10000x64 .f32) (w : FVec Ideal S64x64 .f32) (b2 : FVec Ideal S1x64 .f32) :
    Gen.k0_pay1 (F := Ideal) x0 w b2 = kNorm (kLeaky (kAffine x0 w b2)) := rfl

theorem dot_block_lhs0 (i : S10000x64.Idx) (k : dot_S10000x64_S64x64_S10000x64_1_0_0_1_n_n.contr.Idx) : (dot_S10000x64_S64x64_S10000x64_1_0_0_1_n_n.lhsIdx i k 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem dot_block_lhs1 (i : S10000x64.Idx) (k : dot_S10000x64_S64x64_S10000x64_1_0_0_1_n_n.contr.Idx) : (dot_S10000x64_S64x64_S10000x64_1_0_0_1_n_n.lhsIdx i k 1).val = (k ⟨0, by decide⟩).val :=
  dot_S10000x64_S64x64_S10000x64_1_0_0_1_n_n.lhsIdx_val_of_single rfl i k
theorem dot_block_rhs0 (i : S10000x64.Idx) (k : dot_S10000x64_S64x64_S10000x64_1_0_0_1_n_n.contr.Idx) : (dot_S10000x64_S64x64_S10000x64_1_0_0_1_n_n.rhsIdx i k 0).val = (k ⟨0, by decide⟩).val :=
  dot_S10000x64_S64x64_S10000x64_1_0_0_1_n_n.rhsIdx_val_of_single rfl i k
theorem dot_block_rhs1 (i : S10000x64.Idx) (k : dot_S10000x64_S64x64_S10000x64_1_0_0_1_n_n.contr.Idx) : (dot_S10000x64_S64x64_S10000x64_1_0_0_1_n_n.rhsIdx i k 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The contraction of a row of the left operand with a column of the right one, as a sum over the 64 shared positions. -/
theorem dot_block (l : S10000x64.Idx → EReal) (r : S64x64.Idx → EReal) (p : Fin 10000) (q : Fin 64) :
    ∑ k : dot_S10000x64_S64x64_S10000x64_1_0_0_1_n_n.contr.Idx, l (dot_S10000x64_S64x64_S10000x64_1_0_0_1_n_n.lhsIdx (ix2 p q) k) * r (dot_S10000x64_S64x64_S10000x64_1_0_0_1_n_n.rhsIdx (ix2 p q) k)
      = ∑ k : Fin 64, l (ix2 p k) * r (ix2 k q) := by
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact dot_block_lhs0 _ _
    | ⟨1, _⟩ => exact (dot_block_lhs1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (dot_block_rhs0 _ _).trans hk
    | ⟨1, _⟩ => exact dot_block_rhs1 _ _)
  rw [el, er]

/-- The affine part at `(p, q)`: row `p` of the block against row `q` of the weights, plus the bias at `q`. -/
theorem affine_apply (x0 : FVec Ideal S10000x64 .f32) (w : FVec Ideal S64x64 .f32) (b2 : FVec Ideal S1x64 .f32) (p : Fin 10000) (q : Fin 64) :
    kAffine x0 w b2 (ix2 p q) = RowLayer.affine (fun k => x0 (ix2 p k)) w (fun k => b2 (ix2 (0 : Fin 1) k)) q := by
  unfold kAffine RowLayer.affine
  rw [addf_apply]
  refine congrArg₂ (· + ·) ?_ ?_
  · refine (Ideal.matmul_constant_zero_apply dot_S10000x64_S64x64_S10000x64_1_0_0_1_n_n none _ _ (ix2 p q)).trans ?_
    rw [dot_block]
    refine Finset.sum_congr rfl fun k _ => ?_
    rw [shapeCast_self, transpose_ix2_apply]
  · rw [broadcastTo_1b_ab_apply, shapeCast_self]

/-- The rectifier at an index is the scalar rectifier of the entry there. -/
theorem leaky_apply (v : FVec Ideal S10000x64 .f32) (i : S10000x64.Idx) : kLeaky v i = RowLayer.leaky (v i) := rfl

/-- The row sum's inserted index: position `k` of row `p`. -/
theorem lift_eq (p : Fin 10000) (k : Fin 64) : reduces_S10000x64_S10000.lift (ix1 p) k = ix2 p k :=
  funext fun a => Fin.ext (by
    match a with
    | ⟨0, _⟩ => rfl
    | ⟨1, _⟩ => rfl)

/-- The normalisation at `(p, q)`: the entry divided by the scale of row `p`. -/
theorem norm_apply (v : FVec Ideal S10000x64 .f32) (p : Fin 10000) (q : Fin 64) :
    kNorm v (ix2 p q) = Ideal.div (v (ix2 p q)) (RowLayer.scale fun k => v (ix2 p k)) := by
  unfold kNorm RowLayer.scale
  rw [divf_apply]
  refine congrArg (Ideal.div _) ?_
  rw [LibLayout.broadcastTo_a1_ab_apply, maximumf_apply]
  refine congrArg₂ max ?_ rfl
  show Ideal.sqrt (shapeCast S10000x1 _ shapeCasts_S10000_S10000x1 (ix2 p (0 : Fin 1))) = Ideal.sqrt _
  rw [LibLayout.shapeCast_a_a1_apply]
  refine congrArg Ideal.sqrt ?_
  refine (Ideal.multiReduction_add_single (mulf v v) 0x00000000#32 reduces_S10000x64_S10000 (.inl rfl) rfl (ix1 p)).trans ?_
  refine Finset.sum_congr rfl fun k _ => ?_
  exact congrArg (mulf v v) (lift_eq p k)

/-- THE STORED VALUE AT `(p, q)` is the dense half of a layer of row `p` of the block, at column `q`. -/
theorem pay_apply (x0 : FVec Ideal S10000x64 .f32) (w : FVec Ideal S64x64 .f32) (b2 : FVec Ideal S1x64 .f32) (p : Fin 10000) (q : Fin 64) :
    Gen.k0_pay1 (F := Ideal) x0 w b2 (ix2 p q) = RowLayer.row (fun k => x0 (ix2 p k)) w (fun k => b2 (ix2 (0 : Fin 1) k)) q := by
  rw [pay_eq, norm_apply]
  unfold RowLayer.row
  simp only [leaky_apply, affine_apply]

/-- The four kernels store the same function of their loads. -/
theorem pay1_eq : @Gen.k1_pay1 Ideal _ = Gen.k0_pay1 := rfl
theorem pay2_eq : @Gen.k2_pay1 Ideal _ = Gen.k0_pay1 := rfl
theorem pay3_eq : @Gen.k3_pay1 Ideal _ = Gen.k0_pay1 := rfl

end Cert.KernelIdeal.BodyValue

end
-- ==== Proof.Region0.lean ====
/-
  Region 0: what the pipelined kernel leaves in its output array. At grid point `t` the body reads rows
  `10000·t … 10000·t + 9999` of the sparse product, the whole weight matrix and the whole bias row, and writes the same
  rows of the output; row `p` of what it writes is the dense half of a layer of row `10000·t + p`. The 10 blocks
  tile the 100000 rows, so after the run the output array is the dense half of a layer applied to every row of the
  arrays the region found on entry.
-/
import proofs.«156571_j15977278341730_1_alg».proof.Proof.Gen.KernelIdeal.Frame
import proofs.«156571_j15977278341730_1_alg».proof.Proof.BodyValue
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- One stored entry: row `p` of a block whose rows are rows `r` of the array. -/
theorem point_value (x0 : FVec Ideal S10000x64 .f32) (w : FVec Ideal S64x64 .f32) (b2 : FVec Ideal S1x64 .f32)
    (X : S100000x64.Idx → EReal) (p : Fin 10000) (q : Fin 64) (r : Fin 100000)
    (hx : ∀ k : Fin 64, x0 (ix2 p k) = X (ix2 r k)) :
    k0_pay1 (F := Ideal) x0 w b2 (ix2 p q) = RowLayer.rowsU X w b2 (ix2 r q) := by
  rw [BodyValue.pay_apply, RowLayer.rowsU_apply, funext hx]

/-- The printed index maps over the grid: the row-blocked windows sit at block `t`, the weights and the bias at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of the row-wise dense half of the arrays as the region finds them. -/
theorem flushed_eq (c : Dev nD) (t : Fin cfg0.N) :
    (dat0 (F := Ideal) V c).flushed 3 t
      = ((cfg0.win 3).blk t).view.read (Elt Ideal) (RowLayer.rowsU (V c main_v12) (V c main_arg2) (V c main_v13)) := by
  show (cfg0.win 3).cut (grid0.coords t) ((dat0 (F := Ideal) V c).after 3 t) = _
  rw [after0_3]
  unfold out0_3
  rw [View.canon_unit_zero hz]
  simp only [View.ld_unit_zero (S := S10000x64) hz, View.ld_unit_zero (S := S64x64) hz, View.ld_unit_zero (S := S1x64) hz]
  obtain ⟨e00, e01, e10, e11, e20, e21, e30, e31⟩ := idx_facts t
  have hN : cfg0.N = 10 := N_0
  have ht : t.val < 10 := by have := t.isLt; omega
  -- the weights' and the bias row's one block is the whole array
  have hw : iblk0 V c 1 t = V c main_arg2 := by
    funext y
    show V c main_arg2 (((cfg0.win 1).blk t).view.emb y) = V c main_arg2 y
    refine congrArg (V c main_arg2) (funext fun a => Fin.ext ?_)
    match a with
    | ⟨0, _⟩ => show win0_1.index t (0 : Fin 2) * 64 + 1 * (y 0).val = (y 0).val; omega
    | ⟨1, _⟩ => show win0_1.index t (1 : Fin 2) * 64 + 1 * (y 1).val = (y 1).val; omega
  have hb : iblk0 V c 2 t = V c main_v13 := by
    funext y
    show V c main_v13 (((cfg0.win 2).blk t).view.emb y) = V c main_v13 y
    refine congrArg (V c main_v13) (funext fun a => Fin.ext ?_)
    match a with
    | ⟨0, _⟩ => show win0_2.index t (0 : Fin 2) * 1 + 1 * (y 0).val = (y 0).val; omega
    | ⟨1, _⟩ => show win0_2.index t (1 : Fin 2) * 64 + 1 * (y 1).val = (y 1).val; omega
  rw [hw, hb]
  funext j
  obtain ⟨p, q, rfl⟩ : ∃ (p : Fin 10000) (q : Fin 64), j = ix2 p q := ⟨j 0, j 1, eq_ix2 j⟩
  have hr : t.val * 10000 + p.val < 100000 := by have := p.isLt; omega
  have hemb : ((cfg0.win 3).blk t).view.emb (ix2 p q) = ix2 (⟨t.val * 10000 + p.val, hr⟩ : Fin 100000) q := by
    funext a
    apply Fin.ext
    match a with
    | ⟨0, _⟩ => show win0_3.index t (0 : Fin 2) * 10000 + 1 * p.val = t.val * 10000 + p.val; omega
    | ⟨1, _⟩ => show win0_3.index t (1 : Fin 2) * 64 + 1 * q.val = q.val; omega
  show k0_pay1 (F := Ideal) (iblk0 V c 0 t) (V c main_arg2) (V c main_v13) (ix2 p q)
    = RowLayer.rowsU (V c main_v12) (V c main_arg2) (V c main_v13) (((cfg0.win 3).blk t).view.emb (ix2 p q))
  rw [hemb]
  refine point_value (iblk0 V c 0 t) (V c main_arg2) (V c main_v13) (V c main_v12) p q ⟨t.val * 10000 + p.val, hr⟩ fun k => ?_
  show V c main_v12 (((cfg0.win 0).blk t).view.emb (ix2 p k)) = V c main_v12 (ix2 (⟨t.val * 10000 + p.val, hr⟩ : Fin 100000) k)
  refine congrArg (V c main_v12) (funext fun a => Fin.ext ?_)
  match a with
  | ⟨0, _⟩ => show win0_0.index t (0 : Fin 2) * 10000 + 1 * p.val = t.val * 10000 + p.val; omega
  | ⟨1, _⟩ => show win0_0.index t (1 : Fin 2) * 64 + 1 * k.val = k.val; omega

/-- An index of the output array is in point `t`'s block iff each coordinate is in the block's range. -/
theorem mem_blk (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v14).slice (win0_3.rect t)).set ↔ _
  rw [View.set_slice_whole, Rect.mem_set_unit]
  exact Iff.rfl

/-- THE OUTPUT ARRAY after the region: the dense half of a layer of every row of the entry arrays. -/
theorem final (c : Dev nD) :
    (dat0 (F := Ideal) V c).arrAt 3 cfg0.N = RowLayer.rowsU (V c main_v12) (V c main_arg2) (V c main_v13) :=
  (dat0 (F := Ideal) V c).arrAt_eq_of_cover 3 (RowLayer.rowsU (V c main_v12) (V c main_arg2) (V c main_v13)) (fun t _ => flushed_eq V c t) fun i => by
    have hN : cfg0.N = 10 := N_0
    have hi0 : (i 0).val < 100000 := (i 0).isLt
    have hi1 : (i 1).val < 64 := (i 1).isLt
    refine ⟨⟨(i 0).val / 10000, by omega⟩, flush0_3 _, ?_⟩
    rw [mem_blk]
    obtain ⟨-, -, -, -, -, -, e30, e31⟩ := idx_facts ⟨(i 0).val / 10000, by omega⟩
    intro a
    match a with
    | ⟨0, _⟩ =>
      show win0_3.index ⟨(i 0).val / 10000, _⟩ (0 : Fin 2) * 10000 ≤ (i 0).val ∧ (i 0).val < win0_3.index ⟨(i 0).val / 10000, _⟩ (0 : Fin 2) * 10000 + 10000
      rw [e30]; show (i 0).val / 10000 * 10000 ≤ (i 0).val ∧ (i 0).val < (i 0).val / 10000 * 10000 + 10000; omega
    | ⟨1, _⟩ =>
      show win0_3.index ⟨(i 0).val / 10000, _⟩ (1 : Fin 2) * 64 ≤ (i 1).val ∧ (i 1).val < win0_3.index ⟨(i 0).val / 10000, _⟩ (1 : Fin 2) * 64 + 64
      rw [e31]; omega

end Cert.KernelIdeal.Region0

end
-- ==== Proof.Region1.lean ====
/-
  Region 1: what the pipelined kernel leaves in its output array. At grid point `t` the body reads rows
  `10000·t … 10000·t + 9999` of the sparse product, the whole weight matrix and the whole bias row, and writes the same
  rows of the output; row `p` of what it writes is the dense half of a layer of row `10000·t + p`. The 5 blocks
  tile the 50000 rows, so after the run the output array is the dense half of a layer applied to every row of the
  arrays the region found on entry.
-/
import proofs.«156571_j15977278341730_1_alg».proof.Proof.Gen.KernelIdeal.Frame
import proofs.«156571_j15977278341730_1_alg».proof.Proof.BodyValue
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- One stored entry: row `p` of a block whose rows are rows `r` of the array. -/
theorem point_value (x0 : FVec Ideal S10000x64 .f32) (w : FVec Ideal S64x64 .f32) (b2 : FVec Ideal S1x64 .f32)
    (X : S50000x64.Idx → EReal) (p : Fin 10000) (q : Fin 64) (r : Fin 50000)
    (hx : ∀ k : Fin 64, x0 (ix2 p k) = X (ix2 r k)) :
    k0_pay1 (F := Ideal) x0 w b2 (ix2 p q) = RowLayer.rowsI X w b2 (ix2 r q) := by
  rw [BodyValue.pay_apply, RowLayer.rowsI_apply, funext hx]

/-- The printed index maps over the grid: the row-blocked windows sit at block `t`, the weights and the bias at block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- WHAT POINT `t` WRITES BACK is block `t` of the row-wise dense half of the arrays as the region finds them. -/
theorem flushed_eq (c : Dev nD) (t : Fin cfg1.N) :
    (dat1 (F := Ideal) V c).flushed 3 t
      = ((cfg1.win 3).blk t).view.read (Elt Ideal) (RowLayer.rowsI (V c main_v27) (V c main_arg6) (V c main_v28)) := by
  show (cfg1.win 3).cut (grid1.coords t) ((dat1 (F := Ideal) V c).after 3 t) = _
  rw [after1_3]
  unfold out1_3
  rw [View.canon_unit_zero hz]
  simp only [View.ld_unit_zero (S := S10000x64) hz, View.ld_unit_zero (S := S64x64) hz, View.ld_unit_zero (S := S1x64) hz]
  obtain ⟨e00, e01, e10, e11, e20, e21, e30, e31⟩ := idx_facts t
  have hN : cfg1.N = 5 := N_1
  have ht : t.val < 5 := by have := t.isLt; omega
  -- the weights' and the bias row's one block is the whole array
  have hw : iblk1 V c 1 t = V c main_arg6 := by
    funext y
    show V c main_arg6 (((cfg1.win 1).blk t).view.emb y) = V c main_arg6 y
    refine congrArg (V c main_arg6) (funext fun a => Fin.ext ?_)
    match a with
    | ⟨0, _⟩ => show win1_1.index t (0 : Fin 2) * 64 + 1 * (y 0).val = (y 0).val; omega
    | ⟨1, _⟩ => show win1_1.index t (1 : Fin 2) * 64 + 1 * (y 1).val = (y 1).val; omega
  have hb : iblk1 V c 2 t = V c main_v28 := by
    funext y
    show V c main_v28 (((cfg1.win 2).blk t).view.emb y) = V c main_v28 y
    refine congrArg (V c main_v28) (funext fun a => Fin.ext ?_)
    match a with
    | ⟨0, _⟩ => show win1_2.index t (0 : Fin 2) * 1 + 1 * (y 0).val = (y 0).val; omega
    | ⟨1, _⟩ => show win1_2.index t (1 : Fin 2) * 64 + 1 * (y 1).val = (y 1).val; omega
  rw [hw, hb]
  funext j
  obtain ⟨p, q, rfl⟩ : ∃ (p : Fin 10000) (q : Fin 64), j = ix2 p q := ⟨j 0, j 1, eq_ix2 j⟩
  have hr : t.val * 10000 + p.val < 50000 := by have := p.isLt; omega
  have hemb : ((cfg1.win 3).blk t).view.emb (ix2 p q) = ix2 (⟨t.val * 10000 + p.val, hr⟩ : Fin 50000) q := by
    funext a
    apply Fin.ext
    match a with
    | ⟨0, _⟩ => show win1_3.index t (0 : Fin 2) * 10000 + 1 * p.val = t.val * 10000 + p.val; omega
    | ⟨1, _⟩ => show win1_3.index t (1 : Fin 2) * 64 + 1 * q.val = q.val; omega
  show k1_pay1 (F := Ideal) (iblk1 V c 0 t) (V c main_arg6) (V c main_v28) (ix2 p q)
    = RowLayer.rowsI (V c main_v27) (V c main_arg6) (V c main_v28) (((cfg1.win 3).blk t).view.emb (ix2 p q))
  rw [hemb]
  refine point_value (iblk1 V c 0 t) (V c main_arg6) (V c main_v28) (V c main_v27) p q ⟨t.val * 10000 + p.val, hr⟩ fun k => ?_
  show V c main_v27 (((cfg1.win 0).blk t).view.emb (ix2 p k)) = V c main_v27 (ix2 (⟨t.val * 10000 + p.val, hr⟩ : Fin 50000) k)
  refine congrArg (V c main_v27) (funext fun a => Fin.ext ?_)
  match a with
  | ⟨0, _⟩ => show win1_0.index t (0 : Fin 2) * 10000 + 1 * p.val = t.val * 10000 + p.val; omega
  | ⟨1, _⟩ => show win1_0.index t (1 : Fin 2) * 64 + 1 * k.val = k.val; omega

/-- An index of the output array is in point `t`'s block iff each coordinate is in the block's range. -/
theorem mem_blk (t : Fin cfg1.N) (i : S50000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v29).slice (win1_3.rect t)).set ↔ _
  rw [View.set_slice_whole, Rect.mem_set_unit]
  exact Iff.rfl

/-- THE OUTPUT ARRAY after the region: the dense half of a layer of every row of the entry arrays. -/
theorem final (c : Dev nD) :
    (dat1 (F := Ideal) V c).arrAt 3 cfg1.N = RowLayer.rowsI (V c main_v27) (V c main_arg6) (V c main_v28) :=
  (dat1 (F := Ideal) V c).arrAt_eq_of_cover 3 (RowLayer.rowsI (V c main_v27) (V c main_arg6) (V c main_v28)) (fun t _ => flushed_eq V c t) fun i => by
    have hN : cfg1.N = 5 := N_1
    have hi0 : (i 0).val < 50000 := (i 0).isLt
    have hi1 : (i 1).val < 64 := (i 1).isLt
    refine ⟨⟨(i 0).val / 10000, by omega⟩, flush1_3 _, ?_⟩
    rw [mem_blk]
    obtain ⟨-, -, -, -, -, -, e30, e31⟩ := idx_facts ⟨(i 0).val / 10000, by omega⟩
    intro a
    match a with
    | ⟨0, _⟩ =>
      show win1_3.index ⟨(i 0).val / 10000, _⟩ (0 : Fin 2) * 10000 ≤ (i 0).val ∧ (i 0).val < win1_3.index ⟨(i 0).val / 10000, _⟩ (0 : Fin 2) * 10000 + 10000
      rw [e30]; show (i 0).val / 10000 * 10000 ≤ (i 0).val ∧ (i 0).val < (i 0).val / 10000 * 10000 + 10000; omega
    | ⟨1, _⟩ =>
      show win1_3.index ⟨(i 0).val / 10000, _⟩ (1 : Fin 2) * 64 ≤ (i 1).val ∧ (i 1).val < win1_3.index ⟨(i 0).val / 10000, _⟩ (1 : Fin 2) * 64 + 64
      rw [e31]; omega

end Cert.KernelIdeal.Region1

end
-- ==== Proof.Region2.lean ====
/-
  Region 2: what the pipelined kernel leaves in its output array. At grid point `t` the body reads rows
  `10000·t … 10000·t + 9999` of the sparse product, the whole weight matrix and the whole bias row, and writes the same
  rows of the output; row `p` of what it writes is the dense half of a layer of row `10000·t + p`. The 10 blocks
  tile the 100000 rows, so after the run the output array is the dense half of a layer applied to every row of the
  arrays the region found on entry.
-/
import proofs.«156571_j15977278341730_1_alg».proof.Proof.Gen.KernelIdeal.Frame
import proofs.«156571_j15977278341730_1_alg».proof.Proof.BodyValue
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- One stored entry: row `p` of a block whose rows are rows `r` of the array. -/
theorem point_value (x0 : FVec Ideal S10000x64 .f32) (w : FVec Ideal S64x64 .f32) (b2 : FVec Ideal S1x64 .f32)
    (X : S100000x64.Idx → EReal) (p : Fin 10000) (q : Fin 64) (r : Fin 100000)
    (hx : ∀ k : Fin 64, x0 (ix2 p k) = X (ix2 r k)) :
    k0_pay1 (F := Ideal) x0 w b2 (ix2 p q) = RowLayer.rowsU X w b2 (ix2 r q) := by
  rw [BodyValue.pay_apply, RowLayer.rowsU_apply, funext hx]

/-- The printed index maps over the grid: the row-blocked windows sit at block `t`, the weights and the bias at block 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- WHAT POINT `t` WRITES BACK is block `t` of the row-wise dense half of the arrays as the region finds them. -/
theorem flushed_eq (c : Dev nD) (t : Fin cfg2.N) :
    (dat2 (F := Ideal) V c).flushed 3 t
      = ((cfg2.win 3).blk t).view.read (Elt Ideal) (RowLayer.rowsU (V c main_v42) (V c main_arg4) (V c main_v43)) := by
  show (cfg2.win 3).cut (grid2.coords t) ((dat2 (F := Ideal) V c).after 3 t) = _
  rw [after2_3]
  unfold out2_3
  rw [View.canon_unit_zero hz]
  simp only [View.ld_unit_zero (S := S10000x64) hz, View.ld_unit_zero (S := S64x64) hz, View.ld_unit_zero (S := S1x64) hz]
  obtain ⟨e00, e01, e10, e11, e20, e21, e30, e31⟩ := idx_facts t
  have hN : cfg2.N = 10 := N_2
  have ht : t.val < 10 := by have := t.isLt; omega
  -- the weights' and the bias row's one block is the whole array
  have hw : iblk2 V c 1 t = V c main_arg4 := by
    funext y
    show V c main_arg4 (((cfg2.win 1).blk t).view.emb y) = V c main_arg4 y
    refine congrArg (V c main_arg4) (funext fun a => Fin.ext ?_)
    match a with
    | ⟨0, _⟩ => show win2_1.index t (0 : Fin 2) * 64 + 1 * (y 0).val = (y 0).val; omega
    | ⟨1, _⟩ => show win2_1.index t (1 : Fin 2) * 64 + 1 * (y 1).val = (y 1).val; omega
  have hb : iblk2 V c 2 t = V c main_v43 := by
    funext y
    show V c main_v43 (((cfg2.win 2).blk t).view.emb y) = V c main_v43 y
    refine congrArg (V c main_v43) (funext fun a => Fin.ext ?_)
    match a with
    | ⟨0, _⟩ => show win2_2.index t (0 : Fin 2) * 1 + 1 * (y 0).val = (y 0).val; omega
    | ⟨1, _⟩ => show win2_2.index t (1 : Fin 2) * 64 + 1 * (y 1).val = (y 1).val; omega
  rw [hw, hb]
  funext j
  obtain ⟨p, q, rfl⟩ : ∃ (p : Fin 10000) (q : Fin 64), j = ix2 p q := ⟨j 0, j 1, eq_ix2 j⟩
  have hr : t.val * 10000 + p.val < 100000 := by have := p.isLt; omega
  have hemb : ((cfg2.win 3).blk t).view.emb (ix2 p q) = ix2 (⟨t.val * 10000 + p.val, hr⟩ : Fin 100000) q := by
    funext a
    apply Fin.ext
    match a with
    | ⟨0, _⟩ => show win2_3.index t (0 : Fin 2) * 10000 + 1 * p.val = t.val * 10000 + p.val; omega
    | ⟨1, _⟩ => show win2_3.index t (1 : Fin 2) * 64 + 1 * q.val = q.val; omega
  show k2_pay1 (F := Ideal) (iblk2 V c 0 t) (V c main_arg4) (V c main_v43) (ix2 p q)
    = RowLayer.rowsU (V c main_v42) (V c main_arg4) (V c main_v43) (((cfg2.win 3).blk t).view.emb (ix2 p q))
  rw [hemb]
  refine point_value (iblk2 V c 0 t) (V c main_arg4) (V c main_v43) (V c main_v42) p q ⟨t.val * 10000 + p.val, hr⟩ fun k => ?_
  show V c main_v42 (((cfg2.win 0).blk t).view.emb (ix2 p k)) = V c main_v42 (ix2 (⟨t.val * 10000 + p.val, hr⟩ : Fin 100000) k)
  refine congrArg (V c main_v42) (funext fun a => Fin.ext ?_)
  match a with
  | ⟨0, _⟩ => show win2_0.index t (0 : Fin 2) * 10000 + 1 * p.val = t.val * 10000 + p.val; omega
  | ⟨1, _⟩ => show win2_0.index t (1 : Fin 2) * 64 + 1 * k.val = k.val; omega

/-- An index of the output array is in point `t`'s block iff each coordinate is in the block's range. -/
theorem mem_blk (t : Fin cfg2.N) (i : S100000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v44).slice (win2_3.rect t)).set ↔ _
  rw [View.set_slice_whole, Rect.mem_set_unit]
  exact Iff.rfl

/-- THE OUTPUT ARRAY after the region: the dense half of a layer of every row of the entry arrays. -/
theorem final (c : Dev nD) :
    (dat2 (F := Ideal) V c).arrAt 3 cfg2.N = RowLayer.rowsU (V c main_v42) (V c main_arg4) (V c main_v43) :=
  (dat2 (F := Ideal) V c).arrAt_eq_of_cover 3 (RowLayer.rowsU (V c main_v42) (V c main_arg4) (V c main_v43)) (fun t _ => flushed_eq V c t) fun i => by
    have hN : cfg2.N = 10 := N_2
    have hi0 : (i 0).val < 100000 := (i 0).isLt
    have hi1 : (i 1).val < 64 := (i 1).isLt
    refine ⟨⟨(i 0).val / 10000, by omega⟩, flush2_3 _, ?_⟩
    rw [mem_blk]
    obtain ⟨-, -, -, -, -, -, e30, e31⟩ := idx_facts ⟨(i 0).val / 10000, by omega⟩
    intro a
    match a with
    | ⟨0, _⟩ =>
      show win2_3.index ⟨(i 0).val / 10000, _⟩ (0 : Fin 2) * 10000 ≤ (i 0).val ∧ (i 0).val < win2_3.index ⟨(i 0).val / 10000, _⟩ (0 : Fin 2) * 10000 + 10000
      rw [e30]; show (i 0).val / 10000 * 10000 ≤ (i 0).val ∧ (i 0).val < (i 0).val / 10000 * 10000 + 10000; omega
    | ⟨1, _⟩ =>
      show win2_3.index ⟨(i 0).val / 10000, _⟩ (1 : Fin 2) * 64 ≤ (i 1).val ∧ (i 1).val < win2_3.index ⟨(i 0).val / 10000, _⟩ (1 : Fin 2) * 64 + 64
      rw [e31]; omega

end Cert.KernelIdeal.Region2

end
-- ==== Proof.Region3.lean ====
/-
  Region 3: what the pipelined kernel leaves in its output array. At grid point `t` the body reads rows
  `10000·t … 10000·t + 9999` of the sparse product, the whole weight matrix and the whole bias row, and writes the same
  rows of the output; row `p` of what it writes is the dense half of a layer of row `10000·t + p`. The 5 blocks
  tile the 50000 rows, so after the run the output array is the dense half of a layer applied to every row of the
  arrays the region found on entry.
-/
import proofs.«156571_j15977278341730_1_alg».proof.Proof.Gen.KernelIdeal.Frame
import proofs.«156571_j15977278341730_1_alg».proof.Proof.BodyValue
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- One stored entry: row `p` of a block whose rows are rows `r` of the array. -/
theorem point_value (x0 : FVec Ideal S10000x64 .f32) (w : FVec Ideal S64x64 .f32) (b2 : FVec Ideal S1x64 .f32)
    (X : S50000x64.Idx → EReal) (p : Fin 10000) (q : Fin 64) (r : Fin 50000)
    (hx : ∀ k : Fin 64, x0 (ix2 p k) = X (ix2 r k)) :
    k0_pay1 (F := Ideal) x0 w b2 (ix2 p q) = RowLayer.rowsI X w b2 (ix2 r q) := by
  rw [BodyValue.pay_apply, RowLayer.rowsI_apply, funext hx]

/-- The printed index maps over the grid: the row-blocked windows sit at block `t`, the weights and the bias at block 0. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- WHAT POINT `t` WRITES BACK is block `t` of the row-wise dense half of the arrays as the region finds them. -/
theorem flushed_eq (c : Dev nD) (t : Fin cfg3.N) :
    (dat3 (F := Ideal) V c).flushed 3 t
      = ((cfg3.win 3).blk t).view.read (Elt Ideal) (RowLayer.rowsI (V c main_v57) (V c main_arg8) (V c main_v58)) := by
  show (cfg3.win 3).cut (grid3.coords t) ((dat3 (F := Ideal) V c).after 3 t) = _
  rw [after3_3]
  unfold out3_3
  rw [View.canon_unit_zero hz]
  simp only [View.ld_unit_zero (S := S10000x64) hz, View.ld_unit_zero (S := S64x64) hz, View.ld_unit_zero (S := S1x64) hz]
  obtain ⟨e00, e01, e10, e11, e20, e21, e30, e31⟩ := idx_facts t
  have hN : cfg3.N = 5 := N_3
  have ht : t.val < 5 := by have := t.isLt; omega
  -- the weights' and the bias row's one block is the whole array
  have hw : iblk3 V c 1 t = V c main_arg8 := by
    funext y
    show V c main_arg8 (((cfg3.win 1).blk t).view.emb y) = V c main_arg8 y
    refine congrArg (V c main_arg8) (funext fun a => Fin.ext ?_)
    match a with
    | ⟨0, _⟩ => show win3_1.index t (0 : Fin 2) * 64 + 1 * (y 0).val = (y 0).val; omega
    | ⟨1, _⟩ => show win3_1.index t (1 : Fin 2) * 64 + 1 * (y 1).val = (y 1).val; omega
  have hb : iblk3 V c 2 t = V c main_v58 := by
    funext y
    show V c main_v58 (((cfg3.win 2).blk t).view.emb y) = V c main_v58 y
    refine congrArg (V c main_v58) (funext fun a => Fin.ext ?_)
    match a with
    | ⟨0, _⟩ => show win3_2.index t (0 : Fin 2) * 1 + 1 * (y 0).val = (y 0).val; omega
    | ⟨1, _⟩ => show win3_2.index t (1 : Fin 2) * 64 + 1 * (y 1).val = (y 1).val; omega
  rw [hw, hb]
  funext j
  obtain ⟨p, q, rfl⟩ : ∃ (p : Fin 10000) (q : Fin 64), j = ix2 p q := ⟨j 0, j 1, eq_ix2 j⟩
  have hr : t.val * 10000 + p.val < 50000 := by have := p.isLt; omega
  have hemb : ((cfg3.win 3).blk t).view.emb (ix2 p q) = ix2 (⟨t.val * 10000 + p.val, hr⟩ : Fin 50000) q := by
    funext a
    apply Fin.ext
    match a with
    | ⟨0, _⟩ => show win3_3.index t (0 : Fin 2) * 10000 + 1 * p.val = t.val * 10000 + p.val; omega
    | ⟨1, _⟩ => show win3_3.index t (1 : Fin 2) * 64 + 1 * q.val = q.val; omega
  show k3_pay1 (F := Ideal) (iblk3 V c 0 t) (V c main_arg8) (V c main_v58) (ix2 p q)
    = RowLayer.rowsI (V c main_v57) (V c main_arg8) (V c main_v58) (((cfg3.win 3).blk t).view.emb (ix2 p q))
  rw [hemb]
  refine point_value (iblk3 V c 0 t) (V c main_arg8) (V c main_v58) (V c main_v57) p q ⟨t.val * 10000 + p.val, hr⟩ fun k => ?_
  show V c main_v57 (((cfg3.win 0).blk t).view.emb (ix2 p k)) = V c main_v57 (ix2 (⟨t.val * 10000 + p.val, hr⟩ : Fin 50000) k)
  refine congrArg (V c main_v57) (funext fun a => Fin.ext ?_)
  match a with
  | ⟨0, _⟩ => show win3_0.index t (0 : Fin 2) * 10000 + 1 * p.val = t.val * 10000 + p.val; omega
  | ⟨1, _⟩ => show win3_0.index t (1 : Fin 2) * 64 + 1 * k.val = k.val; omega

/-- An index of the output array is in point `t`'s block iff each coordinate is in the block's range. -/
theorem mem_blk (t : Fin cfg3.N) (i : S50000x64.Idx) :
    i ∈ ((cfg3.win 3).blk t).view.set ↔ ∀ a : Fin 2, win3_3.index t a * S10000x64.size a ≤ (i a).val ∧ (i a).val < win3_3.index t a * S10000x64.size a + S10000x64.size a := by
  show i ∈ ((View.whole main_v59).slice (win3_3.rect t)).set ↔ _
  rw [View.set_slice_whole, Rect.mem_set_unit]
  exact Iff.rfl

/-- THE OUTPUT ARRAY after the region: the dense half of a layer of every row of the entry arrays. -/
theorem final (c : Dev nD) :
    (dat3 (F := Ideal) V c).arrAt 3 cfg3.N = RowLayer.rowsI (V c main_v57) (V c main_arg8) (V c main_v58) :=
  (dat3 (F := Ideal) V c).arrAt_eq_of_cover 3 (RowLayer.rowsI (V c main_v57) (V c main_arg8) (V c main_v58)) (fun t _ => flushed_eq V c t) fun i => by
    have hN : cfg3.N = 5 := N_3
    have hi0 : (i 0).val < 50000 := (i 0).isLt
    have hi1 : (i 1).val < 64 := (i 1).isLt
    refine ⟨⟨(i 0).val / 10000, by omega⟩, flush3_3 _, ?_⟩
    rw [mem_blk]
    obtain ⟨-, -, -, -, -, -, e30, e31⟩ := idx_facts ⟨(i 0).val / 10000, by omega⟩
    intro a
    match a with
    | ⟨0, _⟩ =>
      show win3_3.index ⟨(i 0).val / 10000, _⟩ (0 : Fin 2) * 10000 ≤ (i 0).val ∧ (i 0).val < win3_3.index ⟨(i 0).val / 10000, _⟩ (0 : Fin 2) * 10000 + 10000
      rw [e30]; show (i 0).val / 10000 * 10000 ≤ (i 0).val ∧ (i 0).val < (i 0).val / 10000 * 10000 + 10000; omega
    | ⟨1, _⟩ =>
      show win3_3.index ⟨(i 0).val / 10000, _⟩ (1 : Fin 2) * 64 ≤ (i 1).val ∧ (i 1).val < win3_3.index ⟨(i 0).val / 10000, _⟩ (1 : Fin 2) * 64 + 64
      rw [e31]; omega

end Cert.KernelIdeal.Region3

end
-- ==== Proof.RefLayer.lean ====
/-
  One graph-convolution layer as the reference computes it, as two functions of whole arrays.

  `spmm`: the sparse product `out[r] = Σ_{e : rows e = r} vals e · x[cols e]` — a gather of the rows `x[cols e]` (a negative
  column index wrapped once by the row count), each scaled by `vals e`, scatter-added into a zero array at `rows e`.
  `dense`: `y = x · Wᵀ + b`, the leaky rectifier `z = if y ≥ 0 then y else 0.01 · y`, and each row of `z` divided by
  `max (√(Σ_k z_k²)) 1e-12`.
  The user side works on 100000 rows and 1600000 edges, the item side on 50000 rows and 800000 edges.
-/
import proofs.«156571_j15977278341730_1_alg».proof.ReferenceIdeal

noncomputable section

namespace Cert.ReferenceIdeal.Layer

open Cert.ReferenceIdeal Idealize.ShloMosaic Idealize.SL.Sem
open Facts₀ Facts

variable {F : FTy → Type} [FloatOps F] [Facts]

/-- The sparse product on the user side: 1600000 edges into 100000 rows. -/
def spmmU (x : (⟨S100000x64, .f32⟩ : BufTy).Contents (Elt F)) (rows cols : (⟨S1600000, .i32⟩ : BufTy).Contents (Elt F))
    (vals : (⟨S1600000, .f32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 rows)
    (mulf (broadcastInDim S1600000x64 ![0, 1] bcast_S1600000x1_S1600000x64_0_1 (broadcastInDim S1600000x1 ![0] bcast_S1600000_S1600000x1_0 vals))
      (Host.gather gather_S100000x64_S1600000x1_S1600000x64_1_0_n_n_0_1_164 x
        (broadcastInDim S1600000x1 ![0] bcast_S1600000_S1600000x1_0
          (select (cmpi .slt cols (broadcastInDim S1600000 ![] bcast_S_S1600000 (constantI S_ 32 0#32)))
            (addi cols (broadcastInDim S1600000 ![] bcast_S_S1600000 (constantI S_ 32 100000#32))) cols))))

/-- The sparse product on the item side: 800000 edges into 50000 rows. -/
def spmmI (x : (⟨S50000x64, .f32⟩ : BufTy).Contents (Elt F)) (rows cols : (⟨S800000, .i32⟩ : BufTy).Contents (Elt F))
    (vals : (⟨S800000, .f32⟩ : BufTy).Contents (Elt F)) : (⟨S50000x64, .f32⟩ : BufTy).Contents (Elt F) :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 rows)
    (mulf (broadcastInDim S800000x64 ![0, 1] bcast_S800000x1_S800000x64_0_1 (broadcastInDim S800000x1 ![0] bcast_S800000_S800000x1_0 vals))
      (Host.gather gather_S50000x64_S800000x1_S800000x64_1_0_n_n_0_1_164 x
        (broadcastInDim S800000x1 ![0] bcast_S800000_S800000x1_0
          (select (cmpi .slt cols (broadcastInDim S800000 ![] bcast_S_S800000 (constantI S_ 32 0#32)))
            (addi cols (broadcastInDim S800000 ![] bcast_S_S800000 (constantI S_ 32 50000#32))) cols))))

/-- `x · Wᵀ + b` on 100000 rows. -/
def affineU (x : (⟨S100000x64, .f32⟩ : BufTy).Contents (Elt F)) (W : (⟨S64x64, .f32⟩ : BufTy).Contents (Elt F))
    (b : (⟨S64, .f32⟩ : BufTy).Contents (Elt F)) : (⟨S100000x64, .f32⟩ : BufTy).Contents (Elt F) :=
  addf (Host.dotGeneral dot_S100000x64_S64x64_S100000x64_1_0_0_1_n_n none x (transpose S64x64 [1, 0] W transposes_S64x64_S64x64_1_0))
    (broadcastInDim S100000x64 ![0, 1] bcast_S1x64_S100000x64_0_1 (broadcastInDim S1x64 ![1] bcast_S64_S1x64_1 b))

/-- The leaky rectifier with slope f32(0.01) on 100000 rows. -/
def leakyU (y : (⟨S100000x64, .f32⟩ : BufTy).Contents (Elt F)) : (⟨S100000x64, .f32⟩ : BufTy).Contents (Elt F) :=
  select (cmpf .oge y (broadcastInDim S100000x64 ![] bcast_S_S100000x64 (constant S_ .f32 0x00000000#32))) y
    (mulf (broadcastInDim S100000x64 ![] bcast_S_S100000x64 (id (constant S_ .f32 0x3C23D70A#32))) y)

/-- Each of 100000 rows divided by the larger of its Euclidean norm and f32(1e-12). -/
def normalizeU (z : (⟨S100000x64, .f32⟩ : BufTy).Contents (Elt F)) : (⟨S100000x64, .f32⟩ : BufTy).Contents (Elt F) :=
  Host.divf z (broadcastInDim S100000x64 ![0, 1] bcast_S100000x1_S100000x64_0_1
    (maximumf (Host.sqrt (broadcastInDim S100000x1 ![0] bcast_S100000_S100000x1_0
        (Host.reduceAdd (mulf z z) (constant S_ .f32 0x00000000#32) reducesTo_S100000x64_S100000_d1 h_S_)))
      (broadcastInDim S100000x1 ![] bcast_S_S100000x1 (constant S_ .f32 0x2B8CBCCC#32))))

/-- The dense half of a layer on the user side. -/
def denseU (x : (⟨S100000x64, .f32⟩ : BufTy).Contents (Elt F)) (W : (⟨S64x64, .f32⟩ : BufTy).Contents (Elt F))
    (b : (⟨S64, .f32⟩ : BufTy).Contents (Elt F)) : (⟨S100000x64, .f32⟩ : BufTy).Contents (Elt F) :=
  normalizeU (leakyU (affineU x W b))

/-- `x · Wᵀ + b` on 50000 rows. -/
def affineI (x : (⟨S50000x64, .f32⟩ : BufTy).Contents (Elt F)) (W : (⟨S64x64, .f32⟩ : BufTy).Contents (Elt F))
    (b : (⟨S64, .f32⟩ : BufTy).Contents (Elt F)) : (⟨S50000x64, .f32⟩ : BufTy).Contents (Elt F) :=
  addf (Host.dotGeneral dot_S50000x64_S64x64_S50000x64_1_0_0_1_n_n none x (transpose S64x64 [1, 0] W transposes_S64x64_S64x64_1_0))
    (broadcastInDim S50000x64 ![0, 1] bcast_S1x64_S50000x64_0_1 (broadcastInDim S1x64 ![1] bcast_S64_S1x64_1 b))

/-- The leaky rectifier with slope f32(0.01) on 50000 rows. -/
def leakyI (y : (⟨S50000x64, .f32⟩ : BufTy).Contents (Elt F)) : (⟨S50000x64, .f32⟩ : BufTy).Contents (Elt F) :=
  select (cmpf .oge y (broadcastInDim S50000x64 ![] bcast_S_S50000x64 (constant S_ .f32 0x00000000#32))) y
    (mulf (broadcastInDim S50000x64 ![] bcast_S_S50000x64 (id (constant S_ .f32 0x3C23D70A#32))) y)

/-- Each of 50000 rows divided by the larger of its Euclidean norm and f32(1e-12). -/
def normalizeI (z : (⟨S50000x64, .f32⟩ : BufTy).Contents (Elt F)) : (⟨S50000x64, .f32⟩ : BufTy).Contents (Elt F) :=
  Host.divf z (broadcastInDim S50000x64 ![0, 1] bcast_S50000x1_S50000x64_0_1
    (maximumf (Host.sqrt (broadcastInDim S50000x1 ![0] bcast_S50000_S50000x1_0
        (Host.reduceAdd (mulf z z) (constant S_ .f32 0x00000000#32) reducesTo_S50000x64_S50000_d1 h_S_)))
      (broadcastInDim S50000x1 ![] bcast_S_S50000x1 (constant S_ .f32 0x2B8CBCCC#32))))

/-- The dense half of a layer on the item side. -/
def denseI (x : (⟨S50000x64, .f32⟩ : BufTy).Contents (Elt F)) (W : (⟨S64x64, .f32⟩ : BufTy).Contents (Elt F))
    (b : (⟨S64, .f32⟩ : BufTy).Contents (Elt F)) : (⟨S50000x64, .f32⟩ : BufTy).Contents (Elt F) :=
  normalizeI (leakyI (affineI x W b))

end Cert.ReferenceIdeal.Layer

end
-- ==== Proof.Stretch0.lean ====
/-
  Host stretch 0 of the kernel program: the seventeen host operations before region 0. They compute the user-side
  sparse product of the previous layer's rows (buffer main_v12) and reshape the layer's bias into a one-row matrix (buffer
  main_v13); every other buffer a later stage reads is left as it was.
-/
import proofs.«156571_j15977278341730_1_alg».proof.Proof.Gen.KernelIdeal.Launch
import proofs.«156571_j15977278341730_1_alg».proof.Proof.Gen.ReferenceIdeal
import proofs.«156571_j15977278341730_1_alg».proof.Proof.RefLayer
import Idealize.ShloMosaic.Lib.StableHlo.Run

noncomputable section

namespace Cert.KernelIdeal.Stretch0

open Cert.KernelIdeal Cert.KernelIdeal.Gen Idealize.ShloMosaic Idealize.ShloMosaic.TcCoe Idealize.SL.Sem Idealize.ShloMosaic.StableHlo
open Facts₀ Facts

variable {F : FTy → Type} [FloatOps F] (Vv : Valuation τ sig (Elt F))

/-- The sparse product, as the reference's whole-array function of the same operands. -/
theorem product : after hostOps0 Vv (Proc.devRef .tc main_v12)
    = Cert.ReferenceIdeal.Layer.spmmU (Vv (Proc.devRef .tc main_arg0)) (Vv (Proc.devRef .tc main_arg10)) (Vv (Proc.devRef .tc main_arg11)) (Vv (Proc.devRef .tc main_arg12)) := by
  after_results_simp
  rfl

/-- The bias as a one-row matrix. -/
theorem bias : after hostOps0 Vv (Proc.devRef .tc main_v13)
    = shapeCast S1x64 (Vv (Proc.devRef .tc main_arg3)) Facts₀.shapeCasts_S64_S1x64 := by
  after_results_simp
  rfl

theorem keep_main_arg1 : after hostOps0 Vv (Proc.devRef .tc main_arg1) = Vv (Proc.devRef .tc main_arg1) := by after_results_simp
theorem keep_main_arg2 : after hostOps0 Vv (Proc.devRef .tc main_arg2) = Vv (Proc.devRef .tc main_arg2) := by after_results_simp
theorem keep_main_arg4 : after hostOps0 Vv (Proc.devRef .tc main_arg4) = Vv (Proc.devRef .tc main_arg4) := by after_results_simp
theorem keep_main_arg5 : after hostOps0 Vv (Proc.devRef .tc main_arg5) = Vv (Proc.devRef .tc main_arg5) := by after_results_simp
theorem keep_main_arg6 : after hostOps0 Vv (Proc.devRef .tc main_arg6) = Vv (Proc.devRef .tc main_arg6) := by after_results_simp
theorem keep_main_arg7 : after hostOps0 Vv (Proc.devRef .tc main_arg7) = Vv (Proc.devRef .tc main_arg7) := by after_results_simp
theorem keep_main_arg8 : after hostOps0 Vv (Proc.devRef .tc main_arg8) = Vv (Proc.devRef .tc main_arg8) := by after_results_simp
theorem keep_main_arg9 : after hostOps0 Vv (Proc.devRef .tc main_arg9) = Vv (Proc.devRef .tc main_arg9) := by after_results_simp
theorem keep_main_arg10 : after hostOps0 Vv (Proc.devRef .tc main_arg10) = Vv (Proc.devRef .tc main_arg10) := by after_results_simp
theorem keep_main_arg11 : after hostOps0 Vv (Proc.devRef .tc main_arg11) = Vv (Proc.devRef .tc main_arg11) := by after_results_simp
theorem keep_main_arg12 : after hostOps0 Vv (Proc.devRef .tc main_arg12) = Vv (Proc.devRef .tc main_arg12) := by after_results_simp
theorem keep_main_arg13 : after hostOps0 Vv (Proc.devRef .tc main_arg13) = Vv (Proc.devRef .tc main_arg13) := by after_results_simp
theorem keep_main_arg14 : after hostOps0 Vv (Proc.devRef .tc main_arg14) = Vv (Proc.devRef .tc main_arg14) := by after_results_simp
theorem keep_main_arg15 : after hostOps0 Vv (Proc.devRef .tc main_arg15) = Vv (Proc.devRef .tc main_arg15) := by after_results_simp

end Cert.KernelIdeal.Stretch0

end
-- ==== Proof.Stretch1.lean ====
/-
  Host stretch 1 of the kernel program: the seventeen host operations before region 1. They compute the item-side
  sparse product of the previous layer's rows (buffer main_v27) and reshape the layer's bias into a one-row matrix (buffer
  main_v28); every other buffer a later stage reads is left as it was.
-/
import proofs.«156571_j15977278341730_1_alg».proof.Proof.Gen.KernelIdeal.Launch
import proofs.«156571_j15977278341730_1_alg».proof.Proof.Gen.ReferenceIdeal
import proofs.«156571_j15977278341730_1_alg».proof.Proof.RefLayer
import Idealize.ShloMosaic.Lib.StableHlo.Run

noncomputable section

namespace Cert.KernelIdeal.Stretch1

open Cert.KernelIdeal Cert.KernelIdeal.Gen Idealize.ShloMosaic Idealize.ShloMosaic.TcCoe Idealize.SL.Sem Idealize.ShloMosaic.StableHlo
open Facts₀ Facts

variable {F : FTy → Type} [FloatOps F] (Vv : Valuation τ sig (Elt F))

/-- The sparse product, as the reference's whole-array function of the same operands. -/
theorem product : after hostOps1 Vv (Proc.devRef .tc main_v27)
    = Cert.ReferenceIdeal.Layer.spmmI (Vv (Proc.devRef .tc main_arg1)) (Vv (Proc.devRef .tc main_arg13)) (Vv (Proc.devRef .tc main_arg14)) (Vv (Proc.devRef .tc main_arg15)) := by
  after_results_simp
  rfl

/-- The bias as a one-row matrix. -/
theorem bias : after hostOps1 Vv (Proc.devRef .tc main_v28)
    = shapeCast S1x64 (Vv (Proc.devRef .tc main_arg7)) Facts₀.shapeCasts_S64_S1x64 := by
  after_results_simp
  rfl

theorem keep_main_v14 : after hostOps1 Vv (Proc.devRef .tc main_v14) = Vv (Proc.devRef .tc main_v14) := by after_results_simp
theorem keep_main_arg4 : after hostOps1 Vv (Proc.devRef .tc main_arg4) = Vv (Proc.devRef .tc main_arg4) := by after_results_simp
theorem keep_main_arg5 : after hostOps1 Vv (Proc.devRef .tc main_arg5) = Vv (Proc.devRef .tc main_arg5) := by after_results_simp
theorem keep_main_arg6 : after hostOps1 Vv (Proc.devRef .tc main_arg6) = Vv (Proc.devRef .tc main_arg6) := by after_results_simp
theorem keep_main_arg8 : after hostOps1 Vv (Proc.devRef .tc main_arg8) = Vv (Proc.devRef .tc main_arg8) := by after_results_simp
theorem keep_main_arg9 : after hostOps1 Vv (Proc.devRef .tc main_arg9) = Vv (Proc.devRef .tc main_arg9) := by after_results_simp
theorem keep_main_arg10 : after hostOps1 Vv (Proc.devRef .tc main_arg10) = Vv (Proc.devRef .tc main_arg10) := by after_results_simp
theorem keep_main_arg11 : after hostOps1 Vv (Proc.devRef .tc main_arg11) = Vv (Proc.devRef .tc main_arg11) := by after_results_simp
theorem keep_main_arg12 : after hostOps1 Vv (Proc.devRef .tc main_arg12) = Vv (Proc.devRef .tc main_arg12) := by after_results_simp
theorem keep_main_arg13 : after hostOps1 Vv (Proc.devRef .tc main_arg13) = Vv (Proc.devRef .tc main_arg13) := by after_results_simp
theorem keep_main_arg14 : after hostOps1 Vv (Proc.devRef .tc main_arg14) = Vv (Proc.devRef .tc main_arg14) := by after_results_simp
theorem keep_main_arg15 : after hostOps1 Vv (Proc.devRef .tc main_arg15) = Vv (Proc.devRef .tc main_arg15) := by after_results_simp

end Cert.KernelIdeal.Stretch1

end
-- ==== Proof.Stretch2.lean ====
/-
  Host stretch 2 of the kernel program: the seventeen host operations before region 2. They compute the user-side
  sparse product of the previous layer's rows (buffer main_v42) and reshape the layer's bias into a one-row matrix (buffer
  main_v43); every other buffer a later stage reads is left as it was.
-/
import proofs.«156571_j15977278341730_1_alg».proof.Proof.Gen.KernelIdeal.Launch
import proofs.«156571_j15977278341730_1_alg».proof.Proof.Gen.ReferenceIdeal
import proofs.«156571_j15977278341730_1_alg».proof.Proof.RefLayer
import Idealize.ShloMosaic.Lib.StableHlo.Run

noncomputable section

namespace Cert.KernelIdeal.Stretch2

open Cert.KernelIdeal Cert.KernelIdeal.Gen Idealize.ShloMosaic Idealize.ShloMosaic.TcCoe Idealize.SL.Sem Idealize.ShloMosaic.StableHlo
open Facts₀ Facts

variable {F : FTy → Type} [FloatOps F] (Vv : Valuation τ sig (Elt F))

/-- The sparse product, as the reference's whole-array function of the same operands. -/
theorem product : after hostOps2 Vv (Proc.devRef .tc main_v42)
    = Cert.ReferenceIdeal.Layer.spmmU (Vv (Proc.devRef .tc main_v14)) (Vv (Proc.devRef .tc main_arg10)) (Vv (Proc.devRef .tc main_arg11)) (Vv (Proc.devRef .tc main_arg12)) := by
  after_results_simp
  rfl

/-- The bias as a one-row matrix. -/
theorem bias : after hostOps2 Vv (Proc.devRef .tc main_v43)
    = shapeCast S1x64 (Vv (Proc.devRef .tc main_arg5)) Facts₀.shapeCasts_S64_S1x64 := by
  after_results_simp
  rfl

theorem keep_main_v29 : after hostOps2 Vv (Proc.devRef .tc main_v29) = Vv (Proc.devRef .tc main_v29) := by after_results_simp
theorem keep_main_arg4 : after hostOps2 Vv (Proc.devRef .tc main_arg4) = Vv (Proc.devRef .tc main_arg4) := by after_results_simp
theorem keep_main_arg8 : after hostOps2 Vv (Proc.devRef .tc main_arg8) = Vv (Proc.devRef .tc main_arg8) := by after_results_simp
theorem keep_main_arg9 : after hostOps2 Vv (Proc.devRef .tc main_arg9) = Vv (Proc.devRef .tc main_arg9) := by after_results_simp
theorem keep_main_arg13 : after hostOps2 Vv (Proc.devRef .tc main_arg13) = Vv (Proc.devRef .tc main_arg13) := by after_results_simp
theorem keep_main_arg14 : after hostOps2 Vv (Proc.devRef .tc main_arg14) = Vv (Proc.devRef .tc main_arg14) := by after_results_simp
theorem keep_main_arg15 : after hostOps2 Vv (Proc.devRef .tc main_arg15) = Vv (Proc.devRef .tc main_arg15) := by after_results_simp

end Cert.KernelIdeal.Stretch2

end
-- ==== Proof.Stretch3.lean ====
/-
  Host stretch 3 of the kernel program: the seventeen host operations before region 3. They compute the item-side
  sparse product of the previous layer's rows (buffer main_v57) and reshape the layer's bias into a one-row matrix (buffer
  main_v58); every other buffer a later stage reads is left as it was.
-/
import proofs.«156571_j15977278341730_1_alg».proof.Proof.Gen.KernelIdeal.Launch
import proofs.«156571_j15977278341730_1_alg».proof.Proof.Gen.ReferenceIdeal
import proofs.«156571_j15977278341730_1_alg».proof.Proof.RefLayer
import Idealize.ShloMosaic.Lib.StableHlo.Run

noncomputable section

namespace Cert.KernelIdeal.Stretch3

open Cert.KernelIdeal Cert.KernelIdeal.Gen Idealize.ShloMosaic Idealize.ShloMosaic.TcCoe Idealize.SL.Sem Idealize.ShloMosaic.StableHlo
open Facts₀ Facts

variable {F : FTy → Type} [FloatOps F] (Vv : Valuation τ sig (Elt F))

/-- The sparse product, as the reference's whole-array function of the same operands. -/
theorem product : after hostOps3 Vv (Proc.devRef .tc main_v57)
    = Cert.ReferenceIdeal.Layer.spmmI (Vv (Proc.devRef .tc main_v29)) (Vv (Proc.devRef .tc main_arg13)) (Vv (Proc.devRef .tc main_arg14)) (Vv (Proc.devRef .tc main_arg15)) := by
  after_results_simp
  rfl

/-- The bias as a one-row matrix. -/
theorem bias : after hostOps3 Vv (Proc.devRef .tc main_v58)
    = shapeCast S1x64 (Vv (Proc.devRef .tc main_arg9)) Facts₀.shapeCasts_S64_S1x64 := by
  after_results_simp
  rfl

theorem keep_main_v44 : after hostOps3 Vv (Proc.devRef .tc main_v44) = Vv (Proc.devRef .tc main_v44) := by after_results_simp
theorem keep_main_arg8 : after hostOps3 Vv (Proc.devRef .tc main_arg8) = Vv (Proc.devRef .tc main_arg8) := by after_results_simp

end Cert.KernelIdeal.Stretch3

end
-- ==== Proof.KValue.lean ====
/-
  The two results of the idealized kernel program as functions of the arguments. Reading the buffers back through the
  program's eight segments: each host stretch computes a sparse product of the previous layer's rows and reshapes a bias;
  each region leaves in its output array the dense half of a layer applied to every row of that product; no segment
  writes an argument. So the user result is two layers over the user embedding, the item result two layers over the
  item embedding, each layer the sparse product followed by the row-wise dense half.
-/
import proofs.«156571_j15977278341730_1_alg».proof.Proof.Gen.KernelIdeal.Frame
import proofs.«156571_j15977278341730_1_alg».proof.Proof.KRun
import proofs.«156571_j15977278341730_1_alg».proof.Proof.Region0
import proofs.«156571_j15977278341730_1_alg».proof.Proof.Region1
import proofs.«156571_j15977278341730_1_alg».proof.Proof.Region2
import proofs.«156571_j15977278341730_1_alg».proof.Proof.Region3
import proofs.«156571_j15977278341730_1_alg».proof.Proof.Stretch0
import proofs.«156571_j15977278341730_1_alg».proof.Proof.Stretch1
import proofs.«156571_j15977278341730_1_alg».proof.Proof.Stretch2
import proofs.«156571_j15977278341730_1_alg».proof.Proof.Stretch3

set_option maxRecDepth 16384

noncomputable section

namespace Cert.KernelIdeal.KValue

open Cert.KernelIdeal Cert.KernelIdeal.Gen
open Idealize.ShloMosaic Idealize.ShloMosaic.TcCoe Idealize.SL.Sem
open Cert.ReferenceIdeal.Layer (spmmU spmmI)

variable (m : (ℓ : Loc nD τ sig) → Buf (Elt Ideal) ℓ) (ρ : Dev nD → PrngReg) (c : Dev nD)

/-- An argument's launch contents on core `c`. -/
abbrev A (b : Ref sig .tc) : Buf (Elt Ideal) ((c : Thread nD τ).loc b) := m ((c : Thread nD τ).loc b)

/-- A bias as the one-row matrix the kernel's window holds. -/
abbrev row1 (b : (⟨S64, .f32⟩ : BufTy).Contents (Elt Ideal)) : (⟨S1x64, .f32⟩ : BufTy).Contents (Elt Ideal) :=
  shapeCast S1x64 b Facts₀.shapeCasts_S64_S1x64

/-! ## A buffer that neither a host stretch nor a region has written still holds its launch contents -/

theorem W2_arg (b : Ref sig .tc) (hne0 : ∀ w, Pipeline.arrRef spec0 w ≠ b)
    (hk0 : ∀ Vv : Valuation τ sig (Elt Ideal), StableHlo.after hostOps0 Vv (Proc.devRef .tc b) = Vv (Proc.devRef .tc b)) :
    W2 m ρ c (Proc.devRef .tc b) = A m c b :=
  (W2_of_ne m ρ c b hne0).trans ((hk0 (W0 m ρ c)).trans rfl)

theorem W4_arg (b : Ref sig .tc) (hne0 : ∀ w, Pipeline.arrRef spec0 w ≠ b)
    (hk0 : ∀ Vv : Valuation τ sig (Elt Ideal), StableHlo.after hostOps0 Vv (Proc.devRef .tc b) = Vv (Proc.devRef .tc b))
    (hne1 : ∀ w, Pipeline.arrRef spec1 w ≠ b)
    (hk1 : ∀ Vv : Valuation τ sig (Elt Ideal), StableHlo.after hostOps1 Vv (Proc.devRef .tc b) = Vv (Proc.devRef .tc b)) :
    W4 m ρ c (Proc.devRef .tc b) = A m c b :=
  (W4_of_ne m ρ c b hne1).trans ((hk1 (W2 m ρ c)).trans (W2_arg m ρ c b hne0 hk0))

theorem W6_arg (b : Ref sig .tc) (hne0 : ∀ w, Pipeline.arrRef spec0 w ≠ b)
    (hk0 : ∀ Vv : Valuation τ sig (Elt Ideal), StableHlo.after hostOps0 Vv (Proc.devRef .tc b) = Vv (Proc.devRef .tc b))
    (hne1 : ∀ w, Pipeline.arrRef spec1 w ≠ b)
    (hk1 : ∀ Vv : Valuation τ sig (Elt Ideal), StableHlo.after hostOps1 Vv (Proc.devRef .tc b) = Vv (Proc.devRef .tc b))
    (hne2 : ∀ w, Pipeline.arrRef spec2 w ≠ b)
    (hk2 : ∀ Vv : Valuation τ sig (Elt Ideal), StableHlo.after hostOps2 Vv (Proc.devRef .tc b) = Vv (Proc.devRef .tc b)) :
    W6 m ρ c (Proc.devRef .tc b) = A m c b :=
  (W6_of_ne m ρ c b hne2).trans ((hk2 (W4 m ρ c)).trans (W4_arg m ρ c b hne0 hk0 hne1 hk1))

/-! ## The four layer outputs -/

/-- The user side after one layer. -/
def user1 : (⟨S100000x64, .f32⟩ : BufTy).Contents (Elt Ideal) :=
  RowLayer.rowsU (spmmU (A m c main_arg0) (A m c main_arg10) (A m c main_arg11) (A m c main_arg12)) (A m c main_arg2) (row1 (A m c main_arg3))

/-- The item side after one layer. -/
def item1 : (⟨S50000x64, .f32⟩ : BufTy).Contents (Elt Ideal) :=
  RowLayer.rowsI (spmmI (A m c main_arg1) (A m c main_arg13) (A m c main_arg14) (A m c main_arg15)) (A m c main_arg6) (row1 (A m c main_arg7))

/-- The user side after two layers: the program's first result. -/
def user2 : (⟨S100000x64, .f32⟩ : BufTy).Contents (Elt Ideal) :=
  RowLayer.rowsU (spmmU (user1 m c) (A m c main_arg10) (A m c main_arg11) (A m c main_arg12)) (A m c main_arg4) (row1 (A m c main_arg5))

/-- The item side after two layers: the program's second result. -/
def item2 : (⟨S50000x64, .f32⟩ : BufTy).Contents (Elt Ideal) :=
  RowLayer.rowsI (spmmI (item1 m c) (A m c main_arg13) (A m c main_arg14) (A m c main_arg15)) (A m c main_arg8) (row1 (A m c main_arg9))

/-- Region 0's output array at its exit. -/
theorem user1_eq : W2 m ρ c (Proc.devRef .tc main_v14) = user1 m c := by
  refine (W2_arr m ρ c 3).trans ?_
  rw [Region0.final (V1 m ρ) c]
  have e1 : V1 m ρ c main_v12 = spmmU (A m c main_arg0) (A m c main_arg10) (A m c main_arg11) (A m c main_arg12) :=
    Stretch0.product (W0 m ρ c)
  have e2 : V1 m ρ c main_arg2 = A m c main_arg2 := Stretch0.keep_main_arg2 (W0 m ρ c)
  have e3 : V1 m ρ c main_v13 = row1 (A m c main_arg3) := Stretch0.bias (W0 m ρ c)
  rw [e1, e2, e3]
  rfl

/-- Region 1's output array at its exit. -/
theorem item1_eq : W4 m ρ c (Proc.devRef .tc main_v29) = item1 m c := by
  refine (W4_arr m ρ c 3).trans ?_
  rw [Region1.final (V3 m ρ) c]
  have e1 : V3 m ρ c main_v27 = spmmI (W2 m ρ c (Proc.devRef .tc main_arg1)) (W2 m ρ c (Proc.devRef .tc main_arg13)) (W2 m ρ c (Proc.devRef .tc main_arg14)) (W2 m ρ c (Proc.devRef .tc main_arg15)) :=
    Stretch1.product (W2 m ρ c)
  have e2 : V3 m ρ c main_arg6 = W2 m ρ c (Proc.devRef .tc main_arg6) := Stretch1.keep_main_arg6 (W2 m ρ c)
  have e3 : V3 m ρ c main_v28 = row1 (W2 m ρ c (Proc.devRef .tc main_arg7)) := Stretch1.bias (W2 m ρ c)
  rw [e1, e2, e3,
    W2_arg m ρ c main_arg1 (by decide) (fun Vv => Stretch0.keep_main_arg1 Vv),
    W2_arg m ρ c main_arg13 (by decide) (fun Vv => Stretch0.keep_main_arg13 Vv),
    W2_arg m ρ c main_arg14 (by decide) (fun Vv => Stretch0.keep_main_arg14 Vv),
    W2_arg m ρ c main_arg15 (by decide) (fun Vv => Stretch0.keep_main_arg15 Vv),
    W2_arg m ρ c main_arg6 (by decide) (fun Vv => Stretch0.keep_main_arg6 Vv),
    W2_arg m ρ c main_arg7 (by decide) (fun Vv => Stretch0.keep_main_arg7 Vv)]
  rfl

/-- Region 0's output is still there when host stretch 2 reads it. -/
theorem user1_at4 : W4 m ρ c (Proc.devRef .tc main_v14) = user1 m c :=
  (W4_of_ne m ρ c main_v14 (by decide)).trans ((Stretch1.keep_main_v14 (W2 m ρ c)).trans (user1_eq m ρ c))

/-- Region 2's output array at its exit. -/
theorem user2_eq : W6 m ρ c (Proc.devRef .tc main_v44) = user2 m c := by
  refine (W6_arr m ρ c 3).trans ?_
  rw [Region2.final (V5 m ρ) c]
  have e1 : V5 m ρ c main_v42 = spmmU (W4 m ρ c (Proc.devRef .tc main_v14)) (W4 m ρ c (Proc.devRef .tc main_arg10)) (W4 m ρ c (Proc.devRef .tc main_arg11)) (W4 m ρ c (Proc.devRef .tc main_arg12)) :=
    Stretch2.product (W4 m ρ c)
  have e2 : V5 m ρ c main_arg4 = W4 m ρ c (Proc.devRef .tc main_arg4) := Stretch2.keep_main_arg4 (W4 m ρ c)
  have e3 : V5 m ρ c main_v43 = row1 (W4 m ρ c (Proc.devRef .tc main_arg5)) := Stretch2.bias (W4 m ρ c)
  rw [e1, e2, e3, user1_at4 m ρ c,
    W4_arg m ρ c main_arg10 (by decide) (fun Vv => Stretch0.keep_main_arg10 Vv) (by decide) (fun Vv => Stretch1.keep_main_arg10 Vv),
    W4_arg m ρ c main_arg11 (by decide) (fun Vv => Stretch0.keep_main_arg11 Vv) (by decide) (fun Vv => Stretch1.keep_main_arg11 Vv),
    W4_arg m ρ c main_arg12 (by decide) (fun Vv => Stretch0.keep_main_arg12 Vv) (by decide) (fun Vv => Stretch1.keep_main_arg12 Vv),
    W4_arg m ρ c main_arg4 (by decide) (fun Vv => Stretch0.keep_main_arg4 Vv) (by decide) (fun Vv => Stretch1.keep_main_arg4 Vv),
    W4_arg m ρ c main_arg5 (by decide) (fun Vv => Stretch0.keep_main_arg5 Vv) (by decide) (fun Vv => Stretch1.keep_main_arg5 Vv)]
  rfl

/-- Region 1's output is still there when host stretch 3 reads it. -/
theorem item1_at6 : W6 m ρ c (Proc.devRef .tc main_v29) = item1 m c :=
  (W6_of_ne m ρ c main_v29 (by decide)).trans ((Stretch2.keep_main_v29 (W4 m ρ c)).trans (item1_eq m ρ c))

/-- Region 3's output array at its exit: the second result. -/
theorem item2_eq : W8 m ρ c (Proc.devRef .tc main_v59) = item2 m c := by
  refine (W8_arr m ρ c 3).trans ?_
  rw [Region3.final (V7 m ρ) c]
  have e1 : V7 m ρ c main_v57 = spmmI (W6 m ρ c (Proc.devRef .tc main_v29)) (W6 m ρ c (Proc.devRef .tc main_arg13)) (W6 m ρ c (Proc.devRef .tc main_arg14)) (W6 m ρ c (Proc.devRef .tc main_arg15)) :=
    Stretch3.product (W6 m ρ c)
  have e2 : V7 m ρ c main_arg8 = W6 m ρ c (Proc.devRef .tc main_arg8) := Stretch3.keep_main_arg8 (W6 m ρ c)
  have e3 : V7 m ρ c main_v58 = row1 (W6 m ρ c (Proc.devRef .tc main_arg9)) := Stretch3.bias (W6 m ρ c)
  rw [e1, e2, e3, item1_at6 m ρ c,
    W6_arg m ρ c main_arg13 (by decide) (fun Vv => Stretch0.keep_main_arg13 Vv) (by decide) (fun Vv => Stretch1.keep_main_arg13 Vv) (by decide) (fun Vv => Stretch2.keep_main_arg13 Vv),
    W6_arg m ρ c main_arg14 (by decide) (fun Vv => Stretch0.keep_main_arg14 Vv) (by decide) (fun Vv => Stretch1.keep_main_arg14 Vv) (by decide) (fun Vv => Stretch2.keep_main_arg14 Vv),
    W6_arg m ρ c main_arg15 (by decide) (fun Vv => Stretch0.keep_main_arg15 Vv) (by decide) (fun Vv => Stretch1.keep_main_arg15 Vv) (by decide) (fun Vv => Stretch2.keep_main_arg15 Vv),
    W6_arg m ρ c main_arg8 (by decide) (fun Vv => Stretch0.keep_main_arg8 Vv) (by decide) (fun Vv => Stretch1.keep_main_arg8 Vv) (by decide) (fun Vv => Stretch2.keep_main_arg8 Vv),
    W6_arg m ρ c main_arg9 (by decide) (fun Vv => Stretch0.keep_main_arg9 Vv) (by decide) (fun Vv => Stretch1.keep_main_arg9 Vv) (by decide) (fun Vv => Stretch2.keep_main_arg9 Vv)]
  rfl

/-- Region 2's output survives host stretch 3 and region 3: the first result. -/
theorem user2_at8 : W8 m ρ c (Proc.devRef .tc main_v44) = user2 m c :=
  (W8_of_ne m ρ c main_v44 (by decide)).trans ((Stretch3.keep_main_v44 (W6 m ρ c)).trans (user2_eq m ρ c))

/-! ## The run, read -/

/-- From any memory with zero counters every weakly fair execution of the idealized kernel program terminates with
    the two results at two layers over the embeddings and the sixteen arguments unchanged. -/
theorem run : θ_run defs (onTc (τ := τ) (main (F := Ideal))) ⟨m, fun _ => 0, ρ⟩ (fun r => ∀ c : Dev nD,
      r.2.mem ((c.tc : Thread nD τ).loc main_v44) = user2 m c
      ∧ r.2.mem ((c.tc : Thread nD τ).loc main_v59) = item2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c _ (mem_uc main_v44 (by decide))).trans (user2_at8 m ρ c),
     (h c _ (mem_uc main_v59 (by decide))).trans (item2_eq m ρ c),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c),
     (h c _ (mem_uc main_arg10 (by decide))).trans (W8_main_arg10 m ρ c),
     (h c _ (mem_uc main_arg11 (by decide))).trans (W8_main_arg11 m ρ c),
     (h c _ (mem_uc main_arg12 (by decide))).trans (W8_main_arg12 m ρ c),
     (h c _ (mem_uc main_arg13 (by decide))).trans (W8_main_arg13 m ρ c),
     (h c _ (mem_uc main_arg14 (by decide))).trans (W8_main_arg14 m ρ c),
     (h c _ (mem_uc main_arg15 (by decide))).trans (W8_main_arg15 m ρ c)⟩)
    (KRun.run_all m ρ)

end Cert.KernelIdeal.KValue

end
-- ==== Proof.RefOps.lean ====
/-
  The reference's host program as lists of its operations, cut where the mathematics cuts it: per layer and per side a sparse
  product and a dense half (and a dense half once more where a window of @main's statements ends inside it). A call of the leaky
  rectifier stands as the seven operations of its body — the zero and its broadcast, the comparison, the slope converted and
  broadcast, the product, and the selection of the function it calls — over that call's own buffers.
-/
import proofs.«156571_j15977278341730_1_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F]

/-- The first layer's sparse product on the user side: the column indices wrapped once by 100000 where negative, the rows of the
    user array gathered at them and scaled by the edge values, scatter-added at the row indices into a zero array. It ends in `main_v12`. -/
abbrev userSpmm0 : List (HloOp τ sig (Elt F)) :=
  [ unary main_arg12 main_v0 (broadcastInDim S1600000x1 ![0] bcast_S1600000_S1600000x1_0 : (⟨S1600000, .f32⟩ : BufTy).Contents (Elt F) → (⟨S1600000x1, .f32⟩ : BufTy).Contents (Elt F)),
    nullary main_c (constantI S_ 32 0#32),
    unary main_c main_v1 (broadcastInDim S1600000 ![] bcast_S_S1600000 : (⟨S_, .i32⟩ : BufTy).Contents (Elt F) → (⟨S1600000, .i32⟩ : BufTy).Contents (Elt F)),
    binary main_arg11 main_v1 main_v2 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v3 (broadcastInDim S1600000 ![] bcast_S_S1600000 : (⟨S_, .i32⟩ : BufTy).Contents (Elt F) → (⟨S1600000, .i32⟩ : BufTy).Contents (Elt F)),
    binary main_arg11 main_v3 main_v4 (addi : (⟨S1600000, .i32⟩ : BufTy).Contents (Elt F) → (⟨S1600000, .i32⟩ : BufTy).Contents (Elt F) → (⟨S1600000, .i32⟩ : BufTy).Contents (Elt F)),
    ternary main_v2 main_v4 main_arg11 main_v5 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v5 main_v6 (broadcastInDim S1600000x1 ![0] bcast_S1600000_S1600000x1_0 : (⟨S1600000, .i32⟩ : BufTy).Contents (Elt F) → (⟨S1600000x1, .i32⟩ : BufTy).Contents (Elt F)),
    binary main_arg0 main_v6 main_v7 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v0 main_v8 (broadcastInDim S1600000x64 ![0, 1] bcast_S1600000x1_S1600000x64_0_1 : (⟨S1600000x1, .f32⟩ : BufTy).Contents (Elt F) → (⟨S1600000x64, .f32⟩ : BufTy).Contents (Elt F)),
    binary main_v8 main_v7 main_v9 (mulf : (⟨S1600000x64, .f32⟩ : BufTy).Contents (Elt F) → (⟨S1600000x64, .f32⟩ : BufTy).Contents (Elt F) → (⟨S1600000x64, .f32⟩ : BufTy).Contents (Elt F)),
    nullary main_cst (constant S_ .f32 0x00000000#32),
    unary main_cst main_v10 (broadcastInDim S100000x64 ![] bcast_S_S100000x64 : (⟨S_, .f32⟩ : BufTy).Contents (Elt F) → (⟨S100000x64, .f32⟩ : BufTy).Contents (Elt F)),
    unary main_arg10 main_v11 (broadcastInDim S1600000x1 ![0] bcast_S1600000_S1600000x1_0 : (⟨S1600000, .i32⟩ : BufTy).Contents (Elt F) → (⟨S1600000x1, .i32⟩ : BufTy).Contents (Elt F)),
    ternary main_v10 main_v11 main_v9 main_v12 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- The first layer's dense half on the user side, read from `main_v12`: `x · Wᵀ + b` with the weight `main_arg2` and the bias
    `main_arg3`, the leaky rectifier (the seven operations of
    the called function and of the selection it calls, at the call's own buffers), then each row divided by the larger of its norm
    and f32(1e-12). It ends in `main_v26`. -/
abbrev userDense0 : List (HloOp τ sig (Elt F)) :=
  [ unary main_arg2 main_v13 ((transpose S64x64 [1, 0] · transposes_S64x64_S64x64_1_0) : (⟨S64x64, .f32⟩ : BufTy).Contents (Elt F) → (⟨S64x64, .f32⟩ : BufTy).Contents (Elt F)),
    binary main_v12 main_v13 main_v14 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg3 main_v15 (broadcastInDim S1x64 ![1] bcast_S64_S1x64_1 : (⟨S64, .f32⟩ : BufTy).Contents (Elt F) → (⟨S1x64, .f32⟩ : BufTy).Contents (Elt F)),
    unary main_v15 main_v16 (broadcastInDim S100000x64 ![0, 1] bcast_S1x64_S100000x64_0_1 : (⟨S1x64, .f32⟩ : BufTy).Contents (Elt F) → (⟨S100000x64, .f32⟩ : BufTy).Contents (Elt F)),
    binary main_v14 main_v16 main_v17 (addf : (⟨S100000x64, .f32⟩ : BufTy).Contents (Elt F) → (⟨S100000x64, .f32⟩ : BufTy).Contents (Elt F) → (⟨S100000x64, .f32⟩ : BufTy).Contents (Elt F)),
    nullary main_cst_1 (constant S_ .f32 0x3C23D70A#32),
    TRef.nullary main_call0.cst (constant S_ .f32 0x00000000#32),
    TRef.unary main_call0.cst main_call0.v0 (broadcastInDim S100000x64 ![] bcast_S_S100000x64),
    TRef.binary (.of main_v17 : TRef sig ⟨S100000x64, .f32⟩) main_call0.v0 main_call0.v1 (cmpf .oge),
    TRef.unary (.of main_cst_1 : TRef sig ⟨S_, .f32⟩) main_call0.v2 id,
    TRef.unary main_call0.v2 main_call0.v3 (broadcastInDim S100000x64 ![] bcast_S_S100000x64),
    TRef.binary main_call0.v3 (.of main_v17 : TRef sig ⟨S100000x64, .f32⟩) main_call0.v4 mulf,
    TRef.ternary main_call0.v1 (.of main_v17 : TRef sig ⟨S100000x64, .f32⟩) main_call0.v4 main_call0.call0.v0 select,
    binary main_v18 main_v18 main_v19 (mulf : (⟨S100000x64, .f32⟩ : BufTy).Contents (Elt F) → (⟨S100000x64, .f32⟩ : BufTy).Contents (Elt F) → (⟨S100000x64, .f32⟩ : BufTy).Contents (Elt F)),
    nullary main_cst_2 (constant S_ .f32 0x00000000#32),
    binary main_v19 main_cst_2 main_v20 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v20 main_v21 (broadcastInDim S100000x1 ![0] bcast_S100000_S100000x1_0 : (⟨S100000, .f32⟩ : BufTy).Contents (Elt F) → (⟨S100000x1, .f32⟩ : BufTy).Contents (Elt F)),
    unary main_v21 main_v22 (Host.sqrt : (⟨S100000x1, .f32⟩ : BufTy).Contents (Elt F) → (⟨S100000x1, .f32⟩ : BufTy).Contents (Elt F)),
    nullary main_cst_3 (constant S_ .f32 0x2B8CBCCC#32),
    unary main_cst_3 main_v23 (broadcastInDim S100000x1 ![] bcast_S_S100000x1 : (⟨S_, .f32⟩ : BufTy).Contents (Elt F) → (⟨S100000x1, .f32⟩ : BufTy).Contents (Elt F)),
    binary main_v22 main_v23 main_v24 (maximumf : (⟨S100000x1, .f32⟩ : BufTy).Contents (Elt F) → (⟨S100000x1, .f32⟩ : BufTy).Contents (Elt F) → (⟨S100000x1, .f32⟩ : BufTy).Contents (Elt F)),
    unary main_v24 main_v25 (broadcastInDim S100000x64 ![0, 1] bcast_S100000x1_S100000x64_0_1 : (⟨S100000x1, .f32⟩ : BufTy).Contents (Elt F) → (⟨S100000x64, .f32⟩ : BufTy).Contents (Elt F)),
    binary main_v18 main_v25 main_v26 (Host.divf : (⟨S100000x64, .f32⟩ : BufTy).Contents (Elt F) → (⟨S100000x64, .f32⟩ : BufTy).Contents (Elt F) → (⟨S100000x64, .f32⟩ : BufTy).Contents (Elt F)) ]

/-- The first layer's sparse product on the item side (800000 edges into 50000 rows, indices wrapped by 50000). It ends in `main_v39`. -/
abbrev itemSpmm0 : List (HloOp τ sig (Elt F)) :=
  [ unary main_arg15 main_v27 (broadcastInDim S800000x1 ![0] bcast_S800000_S800000x1_0 : (⟨S800000, .f32⟩ : BufTy).Contents (Elt F) → (⟨S800000x1, .f32⟩ : BufTy).Contents (Elt F)),
    nullary main_c_4 (constantI S_ 32 0#32),
    unary main_c_4 main_v28 (broadcastInDim S800000 ![] bcast_S_S800000 : (⟨S_, .i32⟩ : BufTy).Contents (Elt F) → (⟨S800000, .i32⟩ : BufTy).Contents (Elt F)),
    binary main_arg14 main_v28 main_v29 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v30 (broadcastInDim S800000 ![] bcast_S_S800000 : (⟨S_, .i32⟩ : BufTy).Contents (Elt F) → (⟨S800000, .i32⟩ : BufTy).Contents (Elt F)),
    binary main_arg14 main_v30 main_v31 (addi : (⟨S800000, .i32⟩ : BufTy).Contents (Elt F) → (⟨S800000, .i32⟩ : BufTy).Contents (Elt F) → (⟨S800000, .i32⟩ : BufTy).Contents (Elt F)),
    ternary main_v29 main_v31 main_arg14 main_v32 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v32 main_v33 (broadcastInDim S800000x1 ![0] bcast_S800000_S800000x1_0 : (⟨S800000, .i32⟩ : BufTy).Contents (Elt F) → (⟨S800000x1, .i32⟩ : BufTy).Contents (Elt F)),
    binary main_arg1 main_v33 main_v34 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v27 main_v35 (broadcastInDim S800000x64 ![0, 1] bcast_S800000x1_S800000x64_0_1 : (⟨S800000x1, .f32⟩ : BufTy).Contents (Elt F) → (⟨S800000x64, .f32⟩ : BufTy).Contents (Elt F)),
    binary main_v35 main_v34 main_v36 (mulf : (⟨S800000x64, .f32⟩ : BufTy).Contents (Elt F) → (⟨S800000x64, .f32⟩ : BufTy).Contents (Elt F) → (⟨S800000x64, .f32⟩ : BufTy).Contents (Elt F)),
    nullary main_cst_6 (constant S_ .f32 0x00000000#32),
    unary main_cst_6 main_v37 (broadcastInDim S50000x64 ![] bcast_S_S50000x64 : (⟨S_, .f32⟩ : BufTy).Contents (Elt F) → (⟨S50000x64, .f32⟩ : BufTy).Contents (Elt F)),
    unary main_arg13 main_v38 (broadcastInDim S800000x1 ![0] bcast_S800000_S800000x1_0 : (⟨S800000, .i32⟩ : BufTy).Contents (Elt F) → (⟨S800000x1, .i32⟩ : BufTy).Contents (Elt F)),
    ternary main_v37 main_v38 main_v36 main_v39 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

/-- The first layer's dense half on the item side, read from `main_v39` with the weight `main_arg6` and the bias `main_arg7`, up to the row sums of squares broadcast to a column
    (`main_v48`): the affine map, the leaky rectifier's seven operations, the squares and their sums. -/
abbrev itemDense0a : List (HloOp τ sig (Elt F)) :=
  [ unary main_arg6 main_v40 ((transpose S64x64 [1, 0] · transposes_S64x64_S64x64_1_0) : (⟨S64x64, .f32⟩ : BufTy).Contents (Elt F) → (⟨S64x64, .f32⟩ : BufTy).Contents (Elt F)),
    binary main_v39 main_v40 main_v41 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg7 main_v42 (broadcastInDim S1x64 ![1] bcast_S64_S1x64_1 : (⟨S64, .f32⟩ : BufTy).Contents (Elt F) → (⟨S1x64, .f32⟩ : BufTy).Contents (Elt F)),
    unary main_v42 main_v43 (broadcastInDim S50000x64 ![0, 1] bcast_S1x64_S50000x64_0_1 : (⟨S1x64, .f32⟩ : BufTy).Contents (Elt F) → (⟨S50000x64, .f32⟩ : BufTy).Contents (Elt F)),
    binary main_v41 main_v43 main_v44 (addf : (⟨S50000x64, .f32⟩ : BufTy).Contents (Elt F) → (⟨S50000x64, .f32⟩ : BufTy).Contents (Elt F) → (⟨S50000x64, .f32⟩ : BufTy).Contents (Elt F)),
    nullary main_cst_7 (constant S_ .f32 0x3C23D70A#32),
    TRef.nullary main_call1.cst (constant S_ .f32 0x00000000#32),
    TRef.unary main_call1.cst main_call1.v0 (broadcastInDim S50000x64 ![] bcast_S_S50000x64),
    TRef.binary (.of main_v44 : TRef sig ⟨S50000x64, .f32⟩) main_call1.v0 main_call1.v1 (cmpf .oge),
    TRef.unary (.of main_cst_7 : TRef sig ⟨S_, .f32⟩) main_call1.v2 id,
    TRef.unary main_call1.v2 main_call1.v3 (broadcastInDim S50000x64 ![] bcast_S_S50000x64),
    TRef.binary main_call1.v3 (.of main_v44 : TRef sig ⟨S50000x64, .f32⟩) main_call1.v4 mulf,
    TRef.ternary main_call1.v1 (.of main_v44 : TRef sig ⟨S50000x64, .f32⟩) main_call1.v4 main_call1.call0.v0 select,
    binary main_v45 main_v45 main_v46 (mulf : (⟨S50000x64, .f32⟩ : BufTy).Contents (Elt F) → (⟨S50000x64, .f32⟩ : BufTy).Contents (Elt F) → (⟨S50000x64, .f32⟩ : BufTy).Contents (Elt F)),
    nullary main_cst_8 (constant S_ .f32 0x00000000#32),
    binary main_v46 main_cst_8 main_v47 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v47 main_v48 (broadcastInDim S50000x1 ![0] bcast_S50000_S50000x1_0 : (⟨S50000, .f32⟩ : BufTy).Contents (Elt F) → (⟨S50000x1, .f32⟩ : BufTy).Contents (Elt F)) ]

/-- The rest of the first layer's dense half on the item side: the square roots, their maximum with f32(1e-12), the division.
    It ends in `main_v53`. -/
abbrev itemDense0b : List (HloOp τ sig (Elt F)) :=
  [ unary main_v48 main_v49 (Host.sqrt : (⟨S50000x1, .f32⟩ : BufTy).Contents (Elt F) → (⟨S50000x1, .f32⟩ : BufTy).Contents (Elt F)),
    nullary main_cst_9 (constant S_ .f32 0x2B8CBCCC#32),
    unary main_cst_9 main_v50 (broadcastInDim S50000x1 ![] bcast_S_S50000x1 : (⟨S_, .f32⟩ : BufTy).Contents (Elt F) → (⟨S50000x1, .f32⟩ : BufTy).Contents (Elt F)),
    binary main_v49 main_v50 main_v51 (maximumf : (⟨S50000x1, .f32⟩ : BufTy).Contents (Elt F) → (⟨S50000x1, .f32⟩ : BufTy).Contents (Elt F) → (⟨S50000x1, .f32⟩ : BufTy).Contents (Elt F)),
    unary main_v51 main_v52 (broadcastInDim S50000x64 ![0, 1] bcast_S50000x1_S50000x64_0_1 : (⟨S50000x1, .f32⟩ : BufTy).Contents (Elt F) → (⟨S50000x64, .f32⟩ : BufTy).Contents (Elt F)),
    binary main_v45 main_v52 main_v53 (Host.divf : (⟨S50000x64, .f32⟩ : BufTy).Contents (Elt F) → (⟨S50000x64, .f32⟩ : BufTy).Contents (Elt F) → (⟨S50000x64, .f32⟩ : BufTy).Contents (Elt F)) ]

/-- The second layer's sparse product on the user side, of the first layer's user output `main_v26`. It ends in `main_v66`. -/
abbrev userSpmm1 : List (HloOp τ sig (Elt F)) :=
  [ unary main_arg12 main_v54 (broadcastInDim S1600000x1 ![0] bcast_S1600000_S1600000x1_0 : (⟨S1600000, .f32⟩ : BufTy).Contents (Elt F) → (⟨S1600000x1, .f32⟩ : BufTy).Contents (Elt F)),
    nullary main_c_10 (constantI S_ 32 0#32),
    unary main_c_10 main_v55 (broadcastInDim S1600000 ![] bcast_S_S1600000 : (⟨S_, .i32⟩ : BufTy).Contents (Elt F) → (⟨S1600000, .i32⟩ : BufTy).Contents (Elt F)),
    binary main_arg11 main_v55 main_v56 (cmpi .slt : (⟨S1600000, .i32⟩ : BufTy).Contents (Elt F) → (⟨S1600000, .i32⟩ : BufTy).Contents (Elt F) → (⟨S1600000, .i1⟩ : BufTy).Contents (Elt F)),
    nullary main_c_11 (constantI S_ 32 100000#32),
    unary main_c_11 main_v57 (broadcastInDim S1600000 ![] bcast_S_S1600000 : (⟨S_, .i32⟩ : BufTy).Contents (Elt F) → (⟨S1600000, .i32⟩ : BufTy).Contents (Elt F)),
    binary main_arg11 main_v57 main_v58 (addi : (⟨S1600000, .i32⟩ : BufTy).Contents (Elt F) → (⟨S1600000, .i32⟩ : BufTy).Contents (Elt F) → (⟨S1600000, .i32⟩ : BufTy).Contents (Elt F)),
    ternary main_v56 main_v58 main_arg11 main_v59 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v59 main_v60 (broadcastInDim S1600000x1 ![0] bcast_S1600000_S1600000x1_0 : (⟨S1600000, .i32⟩ : BufTy).Contents (Elt F) → (⟨S1600000x1, .i32⟩ : BufTy).Contents (Elt F)),
    binary main_v26 main_v60 main_v61 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v54 main_v62 (broadcastInDim S1600000x64 ![0, 1] bcast_S1600000x1_S1600000x64_0_1 : (⟨S1600000x1, .f32⟩ : BufTy).Contents (Elt F) → (⟨S1600000x64, .f32⟩ : BufTy).Contents (Elt F)),
    binary main_v62 main_v61 main_v63 (mulf : (⟨S1600000x64, .f32⟩ : BufTy).Contents (Elt F) → (⟨S1600000x64, .f32⟩ : BufTy).Contents (Elt F) → (⟨S1600000x64, .f32⟩ : BufTy).Contents (Elt F)),
    nullary main_cst_12 (constant S_ .f32 0x00000000#32),
    unary main_cst_12 main_v64 (broadcastInDim S100000x64 ![] bcast_S_S100000x64 : (⟨S_, .f32⟩ : BufTy).Contents (Elt F) → (⟨S100000x64, .f32⟩ : BufTy).Contents (Elt F)),
    unary main_arg10 main_v65 (broadcastInDim S1600000x1 ![0] bcast_S1600000_S1600000x1_0 : (⟨S1600000, .i32⟩ : BufTy).Contents (Elt F) → (⟨S1600000x1, .i32⟩ : BufTy).Contents (Elt F)),
    ternary main_v64 main_v65 main_v63 main_v66 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- The second layer's dense half on the user side, read from `main_v66`, with the weight `main_arg4` and the bias `main_arg5`. It ends in `main_v80`, the first result. -/
abbrev userDense1 : List (HloOp τ sig (Elt F)) :=
  [ unary main_arg4 main_v67 ((transpose S64x64 [1, 0] · transposes_S64x64_S64x64_1_0) : (⟨S64x64, .f32⟩ : BufTy).Contents (Elt F) → (⟨S64x64, .f32⟩ : BufTy).Contents (Elt F)),
    binary main_v66 main_v67 main_v68 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg5 main_v69 (broadcastInDim S1x64 ![1] bcast_S64_S1x64_1 : (⟨S64, .f32⟩ : BufTy).Contents (Elt F) → (⟨S1x64, .f32⟩ : BufTy).Contents (Elt F)),
    unary main_v69 main_v70 (broadcastInDim S100000x64 ![0, 1] bcast_S1x64_S100000x64_0_1 : (⟨S1x64, .f32⟩ : BufTy).Contents (Elt F) → (⟨S100000x64, .f32⟩ : BufTy).Contents (Elt F)),
    binary main_v68 main_v70 main_v71 (addf : (⟨S100000x64, .f32⟩ : BufTy).Contents (Elt F) → (⟨S100000x64, .f32⟩ : BufTy).Contents (Elt F) → (⟨S100000x64, .f32⟩ : BufTy).Contents (Elt F)),
    nullary main_cst_13 (constant S_ .f32 0x3C23D70A#32),
    TRef.nullary main_call2.cst (constant S_ .f32 0x00000000#32),
    TRef.unary main_call2.cst main_call2.v0 (broadcastInDim S100000x64 ![] bcast_S_S100000x64),
    TRef.binary (.of main_v71 : TRef sig ⟨S100000x64, .f32⟩) main_call2.v0 main_call2.v1 (cmpf .oge),
    TRef.unary (.of main_cst_13 : TRef sig ⟨S_, .f32⟩) main_call2.v2 id,
    TRef.unary main_call2.v2 main_call2.v3 (broadcastInDim S100000x64 ![] bcast_S_S100000x64),
    TRef.binary main_call2.v3 (.of main_v71 : TRef sig ⟨S100000x64, .f32⟩) main_call2.v4 mulf,
    TRef.ternary main_call2.v1 (.of main_v71 : TRef sig ⟨S100000x64, .f32⟩) main_call2.v4 main_call2.call0.v0 select,
    binary main_v72 main_v72 main_v73 (mulf : (⟨S100000x64, .f32⟩ : BufTy).Contents (Elt F) → (⟨S100000x64, .f32⟩ : BufTy).Contents (Elt F) → (⟨S100000x64, .f32⟩ : BufTy).Contents (Elt F)),
    nullary main_cst_14 (constant S_ .f32 0x00000000#32),
    binary main_v73 main_cst_14 main_v74 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v74 main_v75 (broadcastInDim S100000x1 ![0] bcast_S100000_S100000x1_0 : (⟨S100000, .f32⟩ : BufTy).Contents (Elt F) → (⟨S100000x1, .f32⟩ : BufTy).Contents (Elt F)),
    unary main_v75 main_v76 (Host.sqrt : (⟨S100000x1, .f32⟩ : BufTy).Contents (Elt F) → (⟨S100000x1, .f32⟩ : BufTy).Contents (Elt F)),
    nullary main_cst_15 (constant S_ .f32 0x2B8CBCCC#32),
    unary main_cst_15 main_v77 (broadcastInDim S100000x1 ![] bcast_S_S100000x1 : (⟨S_, .f32⟩ : BufTy).Contents (Elt F) → (⟨S100000x1, .f32⟩ : BufTy).Contents (Elt F)),
    binary main_v76 main_v77 main_v78 (maximumf : (⟨S100000x1, .f32⟩ : BufTy).Contents (Elt F) → (⟨S100000x1, .f32⟩ : BufTy).Contents (Elt F) → (⟨S100000x1, .f32⟩ : BufTy).Contents (Elt F)),
    unary main_v78 main_v79 (broadcastInDim S100000x64 ![0, 1] bcast_S100000x1_S100000x64_0_1 : (⟨S100000x1, .f32⟩ : BufTy).Contents (Elt F) → (⟨S100000x64, .f32⟩ : BufTy).Contents (Elt F)),
    binary main_v72 main_v79 main_v80 (Host.divf : (⟨S100000x64, .f32⟩ : BufTy).Contents (Elt F) → (⟨S100000x64, .f32⟩ : BufTy).Contents (Elt F) → (⟨S100000x64, .f32⟩ : BufTy).Contents (Elt F)) ]

/-- The second layer's sparse product on the item side, of the first layer's item output `main_v53`. It ends in `main_v93`. -/
abbrev itemSpmm1 : List (HloOp τ sig (Elt F)) :=
  [ unary main_arg15 main_v81 (broadcastInDim S800000x1 ![0] bcast_S800000_S800000x1_0 : (⟨S800000, .f32⟩ : BufTy).Contents (Elt F) → (⟨S800000x1, .f32⟩ : BufTy).Contents (Elt F)),
    nullary main_c_16 (constantI S_ 32 0#32),
    unary main_c_16 main_v82 (broadcastInDim S800000 ![] bcast_S_S800000 : (⟨S_, .i32⟩ : BufTy).Contents (Elt F) → (⟨S800000, .i32⟩ : BufTy).Contents (Elt F)),
    binary main_arg14 main_v82 main_v83 (cmpi .slt : (⟨S800000, .i32⟩ : BufTy).Contents (Elt F) → (⟨S800000, .i32⟩ : BufTy).Contents (Elt F) → (⟨S800000, .i1⟩ : BufTy).Contents (Elt F)),
    nullary main_c_17 (constantI S_ 32 50000#32),
    unary main_c_17 main_v84 (broadcastInDim S800000 ![] bcast_S_S800000 : (⟨S_, .i32⟩ : BufTy).Contents (Elt F) → (⟨S800000, .i32⟩ : BufTy).Contents (Elt F)),
    binary main_arg14 main_v84 main_v85 (addi : (⟨S800000, .i32⟩ : BufTy).Contents (Elt F) → (⟨S800000, .i32⟩ : BufTy).Contents (Elt F) → (⟨S800000, .i32⟩ : BufTy).Contents (Elt F)),
    ternary main_v83 main_v85 main_arg14 main_v86 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v86 main_v87 (broadcastInDim S800000x1 ![0] bcast_S800000_S800000x1_0 : (⟨S800000, .i32⟩ : BufTy).Contents (Elt F) → (⟨S800000x1, .i32⟩ : BufTy).Contents (Elt F)),
    binary main_v53 main_v87 main_v88 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v81 main_v89 (broadcastInDim S800000x64 ![0, 1] bcast_S800000x1_S800000x64_0_1 : (⟨S800000x1, .f32⟩ : BufTy).Contents (Elt F) → (⟨S800000x64, .f32⟩ : BufTy).Contents (Elt F)),
    binary main_v89 main_v88 main_v90 (mulf : (⟨S800000x64, .f32⟩ : BufTy).Contents (Elt F) → (⟨S800000x64, .f32⟩ : BufTy).Contents (Elt F) → (⟨S800000x64, .f32⟩ : BufTy).Contents (Elt F)),
    nullary main_cst_18 (constant S_ .f32 0x00000000#32),
    unary main_cst_18 main_v91 (broadcastInDim S50000x64 ![] bcast_S_S50000x64 : (⟨S_, .f32⟩ : BufTy).Contents (Elt F) → (⟨S50000x64, .f32⟩ : BufTy).Contents (Elt F)),
    unary main_arg13 main_v92 (broadcastInDim S800000x1 ![0] bcast_S800000_S800000x1_0 : (⟨S800000, .i32⟩ : BufTy).Contents (Elt F) → (⟨S800000x1, .i32⟩ : BufTy).Contents (Elt F)),
    ternary main_v91 main_v92 main_v90 main_v93 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

/-- The second layer's affine map on the item side, read from `main_v93` with the weight `main_arg8` and the bias `main_arg9`: it ends in `main_v98`. -/
abbrev itemDense1a : List (HloOp τ sig (Elt F)) :=
  [ unary main_arg8 main_v94 ((transpose S64x64 [1, 0] · transposes_S64x64_S64x64_1_0) : (⟨S64x64, .f32⟩ : BufTy).Contents (Elt F) → (⟨S64x64, .f32⟩ : BufTy).Contents (Elt F)),
    binary main_v93 main_v94 main_v95 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg9 main_v96 (broadcastInDim S1x64 ![1] bcast_S64_S1x64_1 : (⟨S64, .f32⟩ : BufTy).Contents (Elt F) → (⟨S1x64, .f32⟩ : BufTy).Contents (Elt F)),
    unary main_v96 main_v97 (broadcastInDim S50000x64 ![0, 1] bcast_S1x64_S50000x64_0_1 : (⟨S1x64, .f32⟩ : BufTy).Contents (Elt F) → (⟨S50000x64, .f32⟩ : BufTy).Contents (Elt F)),
    binary main_v95 main_v97 main_v98 (addf : (⟨S50000x64, .f32⟩ : BufTy).Contents (Elt F) → (⟨S50000x64, .f32⟩ : BufTy).Contents (Elt F) → (⟨S50000x64, .f32⟩ : BufTy).Contents (Elt F)) ]

/-- The rest of the second layer's dense half on the item side: the slope constant, the leaky rectifier's seven operations, the row
    normalisation. It ends in `main_v107`, the second result. -/
abbrev itemDense1b : List (HloOp τ sig (Elt F)) :=
  [ nullary main_cst_19 (constant S_ .f32 0x3C23D70A#32),
    TRef.nullary main_call3.cst (constant S_ .f32 0x00000000#32),
    TRef.unary main_call3.cst main_call3.v0 (broadcastInDim S50000x64 ![] bcast_S_S50000x64),
    TRef.binary (.of main_v98 : TRef sig ⟨S50000x64, .f32⟩) main_call3.v0 main_call3.v1 (cmpf .oge),
    TRef.unary (.of main_cst_19 : TRef sig ⟨S_, .f32⟩) main_call3.v2 id,
    TRef.unary main_call3.v2 main_call3.v3 (broadcastInDim S50000x64 ![] bcast_S_S50000x64),
    TRef.binary main_call3.v3 (.of main_v98 : TRef sig ⟨S50000x64, .f32⟩) main_call3.v4 mulf,
    TRef.ternary main_call3.v1 (.of main_v98 : TRef sig ⟨S50000x64, .f32⟩) main_call3.v4 main_call3.call0.v0 select,
    binary main_v99 main_v99 main_v100 (mulf : (⟨S50000x64, .f32⟩ : BufTy).Contents (Elt F) → (⟨S50000x64, .f32⟩ : BufTy).Contents (Elt F) → (⟨S50000x64, .f32⟩ : BufTy).Contents (Elt F)),
    nullary main_cst_20 (constant S_ .f32 0x00000000#32),
    binary main_v100 main_cst_20 main_v101 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v101 main_v102 (broadcastInDim S50000x1 ![0] bcast_S50000_S50000x1_0 : (⟨S50000, .f32⟩ : BufTy).Contents (Elt F) → (⟨S50000x1, .f32⟩ : BufTy).Contents (Elt F)),
    unary main_v102 main_v103 (Host.sqrt : (⟨S50000x1, .f32⟩ : BufTy).Contents (Elt F) → (⟨S50000x1, .f32⟩ : BufTy).Contents (Elt F)),
    nullary main_cst_21 (constant S_ .f32 0x2B8CBCCC#32),
    unary main_cst_21 main_v104 (broadcastInDim S50000x1 ![] bcast_S_S50000x1 : (⟨S_, .f32⟩ : BufTy).Contents (Elt F) → (⟨S50000x1, .f32⟩ : BufTy).Contents (Elt F)),
    binary main_v103 main_v104 main_v105 (maximumf : (⟨S50000x1, .f32⟩ : BufTy).Contents (Elt F) → (⟨S50000x1, .f32⟩ : BufTy).Contents (Elt F) → (⟨S50000x1, .f32⟩ : BufTy).Contents (Elt F)),
    unary main_v105 main_v106 (broadcastInDim S50000x64 ![0, 1] bcast_S50000x1_S50000x64_0_1 : (⟨S50000x1, .f32⟩ : BufTy).Contents (Elt F) → (⟨S50000x64, .f32⟩ : BufTy).Contents (Elt F)),
    binary main_v99 main_v106 main_v107 (Host.divf : (⟨S50000x64, .f32⟩ : BufTy).Contents (Elt F) → (⟨S50000x64, .f32⟩ : BufTy).Contents (Elt F) → (⟨S50000x64, .f32⟩ : BufTy).Contents (Elt F)) ]

/-- The operations of @main's statements 1 … 60. -/
abbrev window0 : List (HloOp τ sig (Elt F)) := userSpmm0 ++ (userDense0 ++ (itemSpmm0 ++ itemDense0a))
/-- The operations of @main's statements 61 … 120. -/
abbrev window1 : List (HloOp τ sig (Elt F)) := itemDense0b ++ (userSpmm1 ++ (userDense1 ++ (itemSpmm1 ++ itemDense1a)))
/-- The operations of @main's statements 121 … 133. -/
abbrev window2 : List (HloOp τ sig (Elt F)) := itemDense1b

/-- @main's 156 operations in order, the four calls of the leaky rectifier unfolded at their call sites. -/
abbrev ops : List (HloOp τ sig (Elt F)) := window0 ++ (window1 ++ window2)

/-- What an operation writes is among a list of result buffers: a builder writes its one result buffer, a listed reference. -/
macro "writes_listed" : tactic =>
  `(tactic| (simp only [nullary_writes, unary_writes, binary_writes, ternary_writes, Finset.singleton_subset_iff, List.mem_toFinset]
             exact List.mem_map_of_mem (by decide)))

/-- The fold over two lists in a row is the fold over the second from the fold over the first. -/
theorem after_concat : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_concat l₁ l₂]

end Cert.ReferenceIdeal.RefRun

end
-- ==== Proof.RefMain.lean ====
/-
  The reference's @main is the straight line of its 156 operations, and its run: every weakly fair execution terminates with
  each buffer at the fold of the operations' results over the launch contents.
-/
import proofs.«156571_j15977278341730_1_alg».proof.Proof.RefOps

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F]

/-! ## Every operation touches TensorCore buffers only -/

theorem userSpmm0_sub : (userSpmm0 : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub ..⟩

theorem userDense0_sub : (userDense0 : List (HloOp τ sig (Elt F))).Forall fun op => op.bufs ⊆ tcRefs τ sig :=
  ⟨unary_bufs_sub .., binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub .., binary_bufs_sub .., nullary_bufs_sub .., binary_bufs_sub .., unary_bufs_sub .., unary_bufs_sub ..,
    nullary_bufs_sub .., unary_bufs_sub .., binary_bufs_sub .., unary_bufs_sub .., binary_bufs_sub ..⟩

theorem itemSpmm0_sub : (itemSpmm0 : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub ..⟩

theorem itemDense0a_sub : (itemDense0a : List (HloOp τ sig (Elt F))).Forall fun op => op.bufs ⊆ tcRefs τ sig :=
  ⟨unary_bufs_sub .., binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub .., binary_bufs_sub .., nullary_bufs_sub .., binary_bufs_sub .., unary_bufs_sub ..⟩

theorem itemDense0b_sub : (itemDense0b : List (HloOp τ sig (Elt F))).Forall fun op => op.bufs ⊆ tcRefs τ sig :=
  ⟨unary_bufs_sub .., nullary_bufs_sub .., unary_bufs_sub .., binary_bufs_sub .., unary_bufs_sub .., binary_bufs_sub ..⟩

theorem userSpmm1_sub : (userSpmm1 : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub ..⟩

theorem userDense1_sub : (userDense1 : List (HloOp τ sig (Elt F))).Forall fun op => op.bufs ⊆ tcRefs τ sig :=
  ⟨unary_bufs_sub .., binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub .., binary_bufs_sub .., nullary_bufs_sub .., binary_bufs_sub .., unary_bufs_sub .., unary_bufs_sub ..,
    nullary_bufs_sub .., unary_bufs_sub .., binary_bufs_sub .., unary_bufs_sub .., binary_bufs_sub ..⟩

theorem itemSpmm1_sub : (itemSpmm1 : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub ..⟩

theorem itemDense1a_sub : (itemDense1a : List (HloOp τ sig (Elt F))).Forall fun op => op.bufs ⊆ tcRefs τ sig :=
  ⟨unary_bufs_sub .., binary_bufs_sub .., unary_bufs_sub .., unary_bufs_sub .., binary_bufs_sub ..⟩

theorem itemDense1b_sub : (itemDense1b : List (HloOp τ sig (Elt F))).Forall fun op => op.bufs ⊆ tcRefs τ sig :=
  ⟨nullary_bufs_sub .., nullary_bufs_sub .., unary_bufs_sub .., binary_bufs_sub .., unary_bufs_sub .., unary_bufs_sub ..,
    binary_bufs_sub .., ternary_bufs_sub .., binary_bufs_sub .., nullary_bufs_sub .., binary_bufs_sub .., unary_bufs_sub ..,
    unary_bufs_sub .., nullary_bufs_sub .., unary_bufs_sub .., binary_bufs_sub .., unary_bufs_sub .., binary_bufs_sub ..⟩

/-- A property of every element of two lists holds of every element of the two in a row. -/
theorem forall_concat {α : Type} {p : α → Prop} {l₁ l₂ : List α} (h₁ : l₁.Forall p) (h₂ : l₂.Forall p) : (l₁ ++ l₂).Forall p :=
  List.forall_iff_forall_mem.mpr fun a h =>
    (List.mem_append.mp h).elim (List.forall_iff_forall_mem.mp h₁ a) (List.forall_iff_forall_mem.mp h₂ a)

theorem ops_sub : (ops : List (HloOp τ sig (Elt F))).Forall fun op => op.bufs ⊆ tcRefs τ sig :=
  forall_concat
    (forall_concat userSpmm0_sub (forall_concat userDense0_sub (forall_concat itemSpmm0_sub itemDense0a_sub)))
    (forall_concat
      (forall_concat itemDense0b_sub (forall_concat userSpmm1_sub (forall_concat userDense1_sub (forall_concat itemSpmm1_sub itemDense1a_sub))))
      itemDense1b_sub)

/-! ## @main is the straight line of its operations -/

set_option maxRecDepth 8192 in
set_option maxHeartbeats 4000000 in
/-- Statements 1 … 60, the two calls in them unfolded, are the first window's operations in order. -/
theorem main_part0_eq (c : Dev nD) : main_part0 (F := F) c = seq window0 := rfl

set_option maxRecDepth 8192 in
set_option maxHeartbeats 4000000 in
/-- Statements 61 … 120 are the second window's operations in order. -/
theorem main_part1_eq (c : Dev nD) : main_part1 (F := F) c = seq window1 := rfl

set_option maxRecDepth 8192 in
set_option maxHeartbeats 4000000 in
/-- Statements 121 … 133 are the third window's operations in order. -/
theorem main_part2_eq (c : Dev nD) : main_part2 (F := F) c = seq window2 := rfl

/-- @main runs its three windows in turn: the straight line of all 156 operations. -/
theorem main_eq (c : Dev nD) : main (F := F) c = seq ops := by
  show main (F := F) c = seq (window0 ++ (window1 ++ window2))
  rw [seq_append window0 (window1 ++ window2), seq_append window1 window2, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

/-- At the compiled mesh, for any float values, from any memory with zero counters: every weakly fair execution of @main
    terminates, and every final state has each TensorCore buffer at the fold of the 156 operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefUser0.lean ====
/-
  The first layer on the user side read back: from any buffer contents, its sparse product ends at `spmmU` of the user array and the
  user graph's three edge arrays, its dense half at `denseU` of that with the weight `main_arg2` and the bias `main_arg3`, and a buffer it does not write keeps its contents.
-/
import proofs.«156571_j15977278341730_1_alg».proof.Proof.RefOps
import proofs.«156571_j15977278341730_1_alg».proof.Proof.RefLayer

noncomputable section

namespace Cert.ReferenceIdeal.RefRun

open Cert.ReferenceIdeal Cert.ReferenceIdeal.Layer Idealize.ShloMosaic Idealize.ShloMosaic.TcCoe Idealize.SL.Sem Idealize.ShloMosaic.StableHlo
open Facts₀ Facts

variable {F : FTy → Type} [FloatOps F]

/-- The buffers the operations of `userSpmm0` write, in order. -/
abbrev userSpmm0_W : List (Ref sig .tc) :=
  [main_v0, main_c, main_v1, main_v2, main_c_0, main_v3, main_v4, main_v5, main_v6, main_v7, main_v8, main_v9, main_cst, main_v10, main_v11, main_v12]

theorem userSpmm0_writes : (userSpmm0 : List (HloOp τ sig (Elt F))).Forall fun op =>
    op.writes ⊆ (userSpmm0_W.map (Proc.devRef (τ := τ) .tc)).toFinset := by
  simp only [List.Forall]
  and_intros <;> writes_listed

/-- A buffer `userSpmm0` does not write keeps its contents through it. -/
theorem userSpmm0_keep (V : Valuation τ sig (Elt F)) {r : Ref sig .tc} (h : r ∉ userSpmm0_W) :
    after userSpmm0 V (Proc.devRef .tc r) = V (Proc.devRef .tc r) :=
  after_of_writes_sub userSpmm0 V userSpmm0_writes h

/-- The buffers the operations of `userDense0` write, in order. -/
abbrev userDense0_W : List (Ref sig .tc) :=
  [main_v13, main_v14, main_v15, main_v16, main_v17, main_cst_1, main_call0_cst, main_call0_v0, main_call0_v1, main_call0_v2, main_call0_v3, main_call0_v4, main_v18, main_v19, main_cst_2, main_v20, main_v21, main_v22, main_cst_3, main_v23, main_v24, main_v25, main_v26]

theorem userDense0_writes : (userDense0 : List (HloOp τ sig (Elt F))).Forall fun op =>
    op.writes ⊆ (userDense0_W.map (Proc.devRef (τ := τ) .tc)).toFinset := by
  simp only [List.Forall]
  and_intros <;> writes_listed

/-- A buffer `userDense0` does not write keeps its contents through it. -/
theorem userDense0_keep (V : Valuation τ sig (Elt F)) {r : Ref sig .tc} (h : r ∉ userDense0_W) :
    after userDense0 V (Proc.devRef .tc r) = V (Proc.devRef .tc r) :=
  after_of_writes_sub userDense0 V userDense0_writes h

set_option maxRecDepth 8192 in
/-- The sparse product read back: the fold at its last buffer is `spmmU` of the four buffers it reads. -/
theorem userSpmm0_out (V : Valuation τ sig (Elt F)) :
    after userSpmm0 V (main_v12 : DevRef τ sig)
      = spmmU (V (main_arg0 : DevRef τ sig)) (V (main_arg10 : DevRef τ sig)) (V (main_arg11 : DevRef τ sig)) (V (main_arg12 : DevRef τ sig)) := by
  after_results_simp
  rfl

set_option maxRecDepth 8192 in
set_option maxHeartbeats 1000000 in
/-- The dense half read back: the fold at its last buffer is `denseU` of the sparse product's buffer, the weight and the bias
    (the called function's typed references are the buffers themselves, their casts the identity). -/
theorem userDense0_out (V : Valuation τ sig (Elt F)) :
    after userDense0 V (main_v26 : DevRef τ sig)
      = denseU (V (main_v12 : DevRef τ sig)) (V (main_arg2 : DevRef τ sig)) (V (main_arg3 : DevRef τ sig)) := by
  after_results_simp
  rfl

/-- The buffers after the first layer on the user side: the sparse product, then the dense half. -/
def user0 (V : Valuation τ sig (Elt F)) : Valuation τ sig (Elt F) :=
  after userDense0 (after userSpmm0 V)

/-- A buffer none of the stage's operations writes keeps its contents through the stage. -/
theorem user0_keep (V : Valuation τ sig (Elt F)) {r : Ref sig .tc} (h : r ∉ userSpmm0_W ++ userDense0_W) :
    user0 V (Proc.devRef .tc r) = V (Proc.devRef .tc r) := by
  unfold user0
  exact (userDense0_keep _ fun hm => h (List.mem_append_right _ hm)).trans
    (userSpmm0_keep V fun hm => h (List.mem_append_left _ hm))

/-- The stage's output: `denseU` of `spmmU` of the buffers the stage reads, none of which its sparse product writes. -/
theorem user0_out (V : Valuation τ sig (Elt F)) :
    user0 V (main_v26 : DevRef τ sig)
      = denseU (spmmU (V (main_arg0 : DevRef τ sig)) (V (main_arg10 : DevRef τ sig)) (V (main_arg11 : DevRef τ sig)) (V (main_arg12 : DevRef τ sig)))
          (V (main_arg2 : DevRef τ sig)) (V (main_arg3 : DevRef τ sig)) := by
  unfold user0
  rw [userDense0_out, userSpmm0_out, userSpmm0_keep V (r := main_arg2) (by decide), userSpmm0_keep V (r := main_arg3) (by decide)]

end Cert.ReferenceIdeal.RefRun

end
-- ==== Proof.RefItem0.lean ====
/-
  The first layer on the item side read back: from any buffer contents, its sparse product ends at `spmmI` of the item array and the
  item graph's three edge arrays, its dense half at `denseI` of that with the weight `main_arg6` and the bias `main_arg7`, and a buffer it does not write keeps its contents.
-/
import proofs.«156571_j15977278341730_1_alg».proof.Proof.RefUser0

noncomputable section

namespace Cert.ReferenceIdeal.RefRun

open Cert.ReferenceIdeal Cert.ReferenceIdeal.Layer Idealize.ShloMosaic Idealize.ShloMosaic.TcCoe Idealize.SL.Sem Idealize.ShloMosaic.StableHlo
open Facts₀ Facts

variable {F : FTy → Type} [FloatOps F]

/-- The buffers the operations of `itemSpmm0` write, in order. -/
abbrev itemSpmm0_W : List (Ref sig .tc) :=
  [main_v27, main_c_4, main_v28, main_v29, main_c_5, main_v30, main_v31, main_v32, main_v33, main_v34, main_v35, main_v36, main_cst_6, main_v37, main_v38, main_v39]

theorem itemSpmm0_writes : (itemSpmm0 : List (HloOp τ sig (Elt F))).Forall fun op =>
    op.writes ⊆ (itemSpmm0_W.map (Proc.devRef (τ := τ) .tc)).toFinset := by
  simp only [List.Forall]
  and_intros <;> writes_listed

/-- A buffer `itemSpmm0` does not write keeps its contents through it. -/
theorem itemSpmm0_keep (V : Valuation τ sig (Elt F)) {r : Ref sig .tc} (h : r ∉ itemSpmm0_W) :
    after itemSpmm0 V (Proc.devRef .tc r) = V (Proc.devRef .tc r) :=
  after_of_writes_sub itemSpmm0 V itemSpmm0_writes h

/-- The buffers the operations of `itemDense0a` write, in order. -/
abbrev itemDense0a_W : List (Ref sig .tc) :=
  [main_v40, main_v41, main_v42, main_v43, main_v44, main_cst_7, main_call1_cst, main_call1_v0, main_call1_v1, main_call1_v2, main_call1_v3, main_call1_v4, main_v45, main_v46, main_cst_8, main_v47, main_v48]

theorem itemDense0a_writes : (itemDense0a : List (HloOp τ sig (Elt F))).Forall fun op =>
    op.writes ⊆ (itemDense0a_W.map (Proc.devRef (τ := τ) .tc)).toFinset := by
  simp only [List.Forall]
  and_intros <;> writes_listed

/-- A buffer `itemDense0a` does not write keeps its contents through it. -/
theorem itemDense0a_keep (V : Valuation τ sig (Elt F)) {r : Ref sig .tc} (h : r ∉ itemDense0a_W) :
    after itemDense0a V (Proc.devRef .tc r) = V (Proc.devRef .tc r) :=
  after_of_writes_sub itemDense0a V itemDense0a_writes h

/-- The buffers the operations of `itemDense0b` write, in order. -/
abbrev itemDense0b_W : List (Ref sig .tc) :=
  [main_v49, main_cst_9, main_v50, main_v51, main_v52, main_v53]

theorem itemDense0b_writes : (itemDense0b : List (HloOp τ sig (Elt F))).Forall fun op =>
    op.writes ⊆ (itemDense0b_W.map (Proc.devRef (τ := τ) .tc)).toFinset := by
  simp only [List.Forall]
  and_intros <;> writes_listed

/-- A buffer `itemDense0b` does not write keeps its contents through it. -/
theorem itemDense0b_keep (V : Valuation τ sig (Elt F)) {r : Ref sig .tc} (h : r ∉ itemDense0b_W) :
    after itemDense0b V (Proc.devRef .tc r) = V (Proc.devRef .tc r) :=
  after_of_writes_sub itemDense0b V itemDense0b_writes h

set_option maxRecDepth 8192 in
/-- The sparse product read back: the fold at its last buffer is `spmmI` of the four buffers it reads. -/
theorem itemSpmm0_out (V : Valuation τ sig (Elt F)) :
    after itemSpmm0 V (main_v39 : DevRef τ sig)
      = spmmI (V (main_arg1 : DevRef τ sig)) (V (main_arg13 : DevRef τ sig)) (V (main_arg14 : DevRef τ sig)) (V (main_arg15 : DevRef τ sig)) := by
  after_results_simp
  rfl

set_option maxRecDepth 8192 in
set_option maxHeartbeats 1000000 in
/-- The dense half read back over its two lists in a row: the fold at its last buffer is `denseI` of the sparse product's
    buffer, the weight and the bias (the called function's typed references are the buffers themselves, their casts the identity). -/
theorem itemDense0a_0b_out (V : Valuation τ sig (Elt F)) :
    after itemDense0b (after itemDense0a V) (main_v53 : DevRef τ sig)
      = denseI (V (main_v39 : DevRef τ sig)) (V (main_arg6 : DevRef τ sig)) (V (main_arg7 : DevRef τ sig)) := by
  rw [← after_concat]
  simp only [itemDense0a, itemDense0b, List.cons_append, List.nil_append]
  after_results_simp
  rfl

/-- The buffers after the first layer on the item side: the sparse product, then the dense half. -/
def item0 (V : Valuation τ sig (Elt F)) : Valuation τ sig (Elt F) :=
  after itemDense0b (after itemDense0a (after itemSpmm0 V))

/-- A buffer none of the stage's operations writes keeps its contents through the stage. -/
theorem item0_keep (V : Valuation τ sig (Elt F)) {r : Ref sig .tc} (h : r ∉ itemSpmm0_W ++ (itemDense0a_W ++ itemDense0b_W)) :
    item0 V (Proc.devRef .tc r) = V (Proc.devRef .tc r) := by
  unfold item0
  exact (itemDense0b_keep _ fun hm => h (List.mem_append_right _ (List.mem_append_right _ hm))).trans
    ((itemDense0a_keep _ fun hm => h (List.mem_append_right _ (List.mem_append_left _ hm))).trans
      (itemSpmm0_keep V fun hm => h (List.mem_append_left _ hm)))

/-- The stage's output: `denseI` of `spmmI` of the buffers the stage reads, none of which its sparse product writes. -/
theorem item0_out (V : Valuation τ sig (Elt F)) :
    item0 V (main_v53 : DevRef τ sig)
      = denseI (spmmI (V (main_arg1 : DevRef τ sig)) (V (main_arg13 : DevRef τ sig)) (V (main_arg14 : DevRef τ sig)) (V (main_arg15 : DevRef τ sig)))
          (V (main_arg6 : DevRef τ sig)) (V (main_arg7 : DevRef τ sig)) := by
  unfold item0
  rw [itemDense0a_0b_out, itemSpmm0_out, itemSpmm0_keep V (r := main_arg6) (by decide), itemSpmm0_keep V (r := main_arg7) (by decide)]

end Cert.ReferenceIdeal.RefRun

end
-- ==== Proof.RefUser1.lean ====
/-
  The second layer on the user side read back: from any buffer contents, its sparse product ends at `spmmU` of the first layer's user
  output and the user graph's edge arrays, its dense half at `denseU` of that with the weight `main_arg4` and the bias `main_arg5`, and a buffer it does not write keeps its contents.
-/
import proofs.«156571_j15977278341730_1_alg».proof.Proof.RefItem0

noncomputable section

namespace Cert.ReferenceIdeal.RefRun

open Cert.ReferenceIdeal Cert.ReferenceIdeal.Layer Idealize.ShloMosaic Idealize.ShloMosaic.TcCoe Idealize.SL.Sem Idealize.ShloMosaic.StableHlo
open Facts₀ Facts

variable {F : FTy → Type} [FloatOps F]

/-- The buffers the operations of `userSpmm1` write, in order. -/
abbrev userSpmm1_W : List (Ref sig .tc) :=
  [main_v54, main_c_10, main_v55, main_v56, main_c_11, main_v57, main_v58, main_v59, main_v60, main_v61, main_v62, main_v63, main_cst_12, main_v64, main_v65, main_v66]

theorem userSpmm1_writes : (userSpmm1 : List (HloOp τ sig (Elt F))).Forall fun op =>
    op.writes ⊆ (userSpmm1_W.map (Proc.devRef (τ := τ) .tc)).toFinset := by
  simp only [List.Forall]
  and_intros <;> writes_listed

/-- A buffer `userSpmm1` does not write keeps its contents through it. -/
theorem userSpmm1_keep (V : Valuation τ sig (Elt F)) {r : Ref sig .tc} (h : r ∉ userSpmm1_W) :
    after userSpmm1 V (Proc.devRef .tc r) = V (Proc.devRef .tc r) :=
  after_of_writes_sub userSpmm1 V userSpmm1_writes h

/-- The buffers the operations of `userDense1` write, in order. -/
abbrev userDense1_W : List (Ref sig .tc) :=
  [main_v67, main_v68, main_v69, main_v70, main_v71, main_cst_13, main_call2_cst, main_call2_v0, main_call2_v1, main_call2_v2, main_call2_v3, main_call2_v4, main_v72, main_v73, main_cst_14, main_v74, main_v75, main_v76, main_cst_15, main_v77, main_v78, main_v79, main_v80]

theorem userDense1_writes : (userDense1 : List (HloOp τ sig (Elt F))).Forall fun op =>
    op.writes ⊆ (userDense1_W.map (Proc.devRef (τ := τ) .tc)).toFinset := by
  simp only [List.Forall]
  and_intros <;> writes_listed

/-- A buffer `userDense1` does not write keeps its contents through it. -/
theorem userDense1_keep (V : Valuation τ sig (Elt F)) {r : Ref sig .tc} (h : r ∉ userDense1_W) :
    after userDense1 V (Proc.devRef .tc r) = V (Proc.devRef .tc r) :=
  after_of_writes_sub userDense1 V userDense1_writes h

set_option maxRecDepth 8192 in
/-- The sparse product read back: the fold at its last buffer is `spmmU` of the four buffers it reads. -/
theorem userSpmm1_out (V : Valuation τ sig (Elt F)) :
    after userSpmm1 V (main_v66 : DevRef τ sig)
      = spmmU (V (main_v26 : DevRef τ sig)) (V (main_arg10 : DevRef τ sig)) (V (main_arg11 : DevRef τ sig)) (V (main_arg12 : DevRef τ sig)) := by
  after_results_simp
  rfl

set_option maxRecDepth 8192 in
set_option maxHeartbeats 1000000 in
/-- The dense half read back: the fold at its last buffer is `denseU` of the sparse product's buffer, the weight and the bias
    (the called function's typed references are the buffers themselves, their casts the identity). -/
theorem userDense1_out (V : Valuation τ sig (Elt F)) :
    after userDense1 V (main_v80 : DevRef τ sig)
      = denseU (V (main_v66 : DevRef τ sig)) (V (main_arg4 : DevRef τ sig)) (V (main_arg5 : DevRef τ sig)) := by
  after_results_simp
  rfl

/-- The buffers after the second layer on the user side: the sparse product, then the dense half. -/
def user1 (V : Valuation τ sig (Elt F)) : Valuation τ sig (Elt F) :=
  after userDense1 (after userSpmm1 V)

/-- A buffer none of the stage's operations writes keeps its contents through the stage. -/
theorem user1_keep (V : Valuation τ sig (Elt F)) {r : Ref sig .tc} (h : r ∉ userSpmm1_W ++ userDense1_W) :
    user1 V (Proc.devRef .tc r) = V (Proc.devRef .tc r) := by
  unfold user1
  exact (userDense1_keep _ fun hm => h (List.mem_append_right _ hm)).trans
    (userSpmm1_keep V fun hm => h (List.mem_append_left _ hm))

/-- The stage's output: `denseU` of `spmmU` of the buffers the stage reads, none of which its sparse product writes. -/
theorem user1_out (V : Valuation τ sig (Elt F)) :
    user1 V (main_v80 : DevRef τ sig)
      = denseU (spmmU (V (main_v26 : DevRef τ sig)) (V (main_arg10 : DevRef τ sig)) (V (main_arg11 : DevRef τ sig)) (V (main_arg12 : DevRef τ sig)))
          (V (main_arg4 : DevRef τ sig)) (V (main_arg5 : DevRef τ sig)) := by
  unfold user1
  rw [userDense1_out, userSpmm1_out, userSpmm1_keep V (r := main_arg4) (by decide), userSpmm1_keep V (r := main_arg5) (by decide)]

end Cert.ReferenceIdeal.RefRun

end
-- ==== Proof.RefItem1.lean ====
/-
  The second layer on the item side read back: from any buffer contents, its sparse product ends at `spmmI` of the first layer's item
  output and the item graph's edge arrays, its dense half at `denseI` of that with the weight `main_arg8` and the bias `main_arg9`, and a buffer it does not write keeps its contents.
-/
import proofs.«156571_j15977278341730_1_alg».proof.Proof.RefUser1

noncomputable section

namespace Cert.ReferenceIdeal.RefRun

open Cert.ReferenceIdeal Cert.ReferenceIdeal.Layer Idealize.ShloMosaic Idealize.ShloMosaic.TcCoe Idealize.SL.Sem Idealize.ShloMosaic.StableHlo
open Facts₀ Facts

variable {F : FTy → Type} [FloatOps F]

/-- The buffers the operations of `itemSpmm1` write, in order. -/
abbrev itemSpmm1_W : List (Ref sig .tc) :=
  [main_v81, main_c_16, main_v82, main_v83, main_c_17, main_v84, main_v85, main_v86, main_v87, main_v88, main_v89, main_v90, main_cst_18, main_v91, main_v92, main_v93]

theorem itemSpmm1_writes : (itemSpmm1 : List (HloOp τ sig (Elt F))).Forall fun op =>
    op.writes ⊆ (itemSpmm1_W.map (Proc.devRef (τ := τ) .tc)).toFinset := by
  simp only [List.Forall]
  and_intros <;> writes_listed

/-- A buffer `itemSpmm1` does not write keeps its contents through it. -/
theorem itemSpmm1_keep (V : Valuation τ sig (Elt F)) {r : Ref sig .tc} (h : r ∉ itemSpmm1_W) :
    after itemSpmm1 V (Proc.devRef .tc r) = V (Proc.devRef .tc r) :=
  after_of_writes_sub itemSpmm1 V itemSpmm1_writes h

/-- The buffers the operations of `itemDense1a` write, in order. -/
abbrev itemDense1a_W : List (Ref sig .tc) :=
  [main_v94, main_v95, main_v96, main_v97, main_v98]

theorem itemDense1a_writes : (itemDense1a : List (HloOp τ sig (Elt F))).Forall fun op =>
    op.writes ⊆ (itemDense1a_W.map (Proc.devRef (τ := τ) .tc)).toFinset := by
  simp only [List.Forall]
  and_intros <;> writes_listed

/-- A buffer `itemDense1a` does not write keeps its contents through it. -/
theorem itemDense1a_keep (V : Valuation τ sig (Elt F)) {r : Ref sig .tc} (h : r ∉ itemDense1a_W) :
    after itemDense1a V (Proc.devRef .tc r) = V (Proc.devRef .tc r) :=
  after_of_writes_sub itemDense1a V itemDense1a_writes h

/-- The buffers the operations of `itemDense1b` write, in order. -/
abbrev itemDense1b_W : List (Ref sig .tc) :=
  [main_cst_19, main_call3_cst, main_call3_v0, main_call3_v1, main_call3_v2, main_call3_v3, main_call3_v4, main_v99, main_v100, main_cst_20, main_v101, main_v102, main_v103, main_cst_21, main_v104, main_v105, main_v106, main_v107]

theorem itemDense1b_writes : (itemDense1b : List (HloOp τ sig (Elt F))).Forall fun op =>
    op.writes ⊆ (itemDense1b_W.map (Proc.devRef (τ := τ) .tc)).toFinset := by
  simp only [List.Forall]
  and_intros <;> writes_listed

/-- A buffer `itemDense1b` does not write keeps its contents through it. -/
theorem itemDense1b_keep (V : Valuation τ sig (Elt F)) {r : Ref sig .tc} (h : r ∉ itemDense1b_W) :
    after itemDense1b V (Proc.devRef .tc r) = V (Proc.devRef .tc r) :=
  after_of_writes_sub itemDense1b V itemDense1b_writes h

set_option maxRecDepth 8192 in
/-- The sparse product read back: the fold at its last buffer is `spmmI` of the four buffers it reads. -/
theorem itemSpmm1_out (V : Valuation τ sig (Elt F)) :
    after itemSpmm1 V (main_v93 : DevRef τ sig)
      = spmmI (V (main_v53 : DevRef τ sig)) (V (main_arg13 : DevRef τ sig)) (V (main_arg14 : DevRef τ sig)) (V (main_arg15 : DevRef τ sig)) := by
  after_results_simp
  rfl

set_option maxRecDepth 8192 in
set_option maxHeartbeats 1000000 in
/-- The dense half read back over its two lists in a row: the fold at its last buffer is `denseI` of the sparse product's
    buffer, the weight and the bias (the called function's typed references are the buffers themselves, their casts the identity). -/
theorem itemDense1a_1b_out (V : Valuation τ sig (Elt F)) :
    after itemDense1b (after itemDense1a V) (main_v107 : DevRef τ sig)
      = denseI (V (main_v93 : DevRef τ sig)) (V (main_arg8 : DevRef τ sig)) (V (main_arg9 : DevRef τ sig)) := by
  rw [← after_concat]
  simp only [itemDense1a, itemDense1b, List.cons_append, List.nil_append]
  after_results_simp
  rfl

/-- The buffers after the second layer on the item side: the sparse product, then the dense half. -/
def item1 (V : Valuation τ sig (Elt F)) : Valuation τ sig (Elt F) :=
  after itemDense1b (after itemDense1a (after itemSpmm1 V))

/-- A buffer none of the stage's operations writes keeps its contents through the stage. -/
theorem item1_keep (V : Valuation τ sig (Elt F)) {r : Ref sig .tc} (h : r ∉ itemSpmm1_W ++ (itemDense1a_W ++ itemDense1b_W)) :
    item1 V (Proc.devRef .tc r) = V (Proc.devRef .tc r) := by
  unfold item1
  exact (itemDense1b_keep _ fun hm => h (List.mem_append_right _ (List.mem_append_right _ hm))).trans
    ((itemDense1a_keep _ fun hm => h (List.mem_append_right _ (List.mem_append_left _ hm))).trans
      (itemSpmm1_keep V fun hm => h (List.mem_append_left _ hm)))

/-- The stage's output: `denseI` of `spmmI` of the buffers the stage reads, none of which its sparse product writes. -/
theorem item1_out (V : Valuation τ sig (Elt F)) :
    item1 V (main_v107 : DevRef τ sig)
      = denseI (spmmI (V (main_v53 : DevRef τ sig)) (V (main_arg13 : DevRef τ sig)) (V (main_arg14 : DevRef τ sig)) (V (main_arg15 : DevRef τ sig)))
          (V (main_arg8 : DevRef τ sig)) (V (main_arg9 : DevRef τ sig)) := by
  unfold item1
  rw [itemDense1a_1b_out, itemSpmm1_out, itemSpmm1_keep V (r := main_arg8) (by decide), itemSpmm1_keep V (r := main_arg9) (by decide)]

end Cert.ReferenceIdeal.RefRun

end
-- ==== Proof.RefRun.lean ====
/-
  The run of the reference read back. Its 156 operations are four stages in a row — per layer a user side and an item side, each a
  sparse product followed by a dense half —, each stage's output a function of the buffers it reads and every other buffer kept;
  chained, the first result is two user layers of the first argument, the second two item layers of the second, and no operation
  writes an argument.
-/
import proofs.«156571_j15977278341730_1_alg».proof.Proof.RefMain
import proofs.«156571_j15977278341730_1_alg».proof.Proof.RefItem1

noncomputable section

namespace Cert.ReferenceIdeal.RefRun

open Cert.ReferenceIdeal Cert.ReferenceIdeal.Layer Idealize.ShloMosaic Idealize.ShloMosaic.TcCoe Idealize.SL.Sem Idealize.ShloMosaic.StableHlo
open Facts₀ Facts

variable {F : FTy → Type} [FloatOps F]

/-- The fold over all 156 operations is the four stages in turn: the first layer on the user side, on the item side, the second
    layer on the user side, on the item side. -/
theorem after_ops (V : Valuation τ sig (Elt F)) : after ops V = item1 (user1 (item0 (user0 V))) := by
  simp only [ops, window0, window1, window2, after_concat]
  rfl

/-- A buffer no operation writes — an argument — keeps its contents through the whole program. -/
theorem ops_keep (V : Valuation τ sig (Elt F)) {r : Ref sig .tc}
    (h : r ∉ (userSpmm0_W ++ userDense0_W) ++ ((itemSpmm0_W ++ (itemDense0a_W ++ itemDense0b_W)) ++ ((userSpmm1_W ++ userDense1_W) ++ (itemSpmm1_W ++ (itemDense1a_W ++ itemDense1b_W))))) :
    after ops V (Proc.devRef .tc r) = V (Proc.devRef .tc r) := by
  rw [after_ops]
  exact (item1_keep _ fun hm => h (List.mem_append_right _ (List.mem_append_right _ (List.mem_append_right _ hm)))).trans
    ((user1_keep _ fun hm => h (List.mem_append_right _ (List.mem_append_right _ (List.mem_append_left _ hm)))).trans
      ((item0_keep _ fun hm => h (List.mem_append_right _ (List.mem_append_left _ hm))).trans
        (user0_keep V fun hm => h (List.mem_append_left _ hm))))

/-- The first result: the second user layer's output survives the item side's second layer, and is `denseU ∘ spmmU` of the first
    user layer's output — which survives the item side's first layer — and of arguments, which survive everything before. -/
theorem result0 (V : Valuation τ sig (Elt F)) :
    after ops V (main_v80 : DevRef τ sig)
      = denseU (spmmU (denseU (spmmU (V (main_arg0 : DevRef τ sig)) (V (main_arg10 : DevRef τ sig)) (V (main_arg11 : DevRef τ sig)) (V (main_arg12 : DevRef τ sig)))
                  (V (main_arg2 : DevRef τ sig)) (V (main_arg3 : DevRef τ sig)))
                (V (main_arg10 : DevRef τ sig)) (V (main_arg11 : DevRef τ sig)) (V (main_arg12 : DevRef τ sig)))
              (V (main_arg4 : DevRef τ sig)) (V (main_arg5 : DevRef τ sig)) := by
  rw [after_ops, item1_keep _ (r := main_v80) (by decide), user1_out,
    item0_keep _ (r := main_v26) (by decide), user0_out,
    item0_keep _ (r := main_arg10) (by decide), user0_keep _ (r := main_arg10) (by decide),
    item0_keep _ (r := main_arg11) (by decide), user0_keep _ (r := main_arg11) (by decide),
    item0_keep _ (r := main_arg12) (by decide), user0_keep _ (r := main_arg12) (by decide),
    item0_keep _ (r := main_arg4) (by decide), user0_keep _ (r := main_arg4) (by decide),
    item0_keep _ (r := main_arg5) (by decide), user0_keep _ (r := main_arg5) (by decide)]

/-- The second result: `denseI ∘ spmmI` of the first item layer's output — which survives the user side's second layer — and of
    arguments, which survive everything before. -/
theorem result1 (V : Valuation τ sig (Elt F)) :
    after ops V (main_v107 : DevRef τ sig)
      = denseI (spmmI (denseI (spmmI (V (main_arg1 : DevRef τ sig)) (V (main_arg13 : DevRef τ sig)) (V (main_arg14 : DevRef τ sig)) (V (main_arg15 : DevRef τ sig)))
                  (V (main_arg6 : DevRef τ sig)) (V (main_arg7 : DevRef τ sig)))
                (V (main_arg13 : DevRef τ sig)) (V (main_arg14 : DevRef τ sig)) (V (main_arg15 : DevRef τ sig)))
              (V (main_arg8 : DevRef τ sig)) (V (main_arg9 : DevRef τ sig)) := by
  rw [after_ops, item1_out, user1_keep _ (r := main_v53) (by decide), item0_out,
    user0_keep _ (r := main_arg1) (by decide),
    user0_keep _ (r := main_arg13) (by decide),
    user0_keep _ (r := main_arg14) (by decide),
    user0_keep _ (r := main_arg15) (by decide),
    user0_keep _ (r := main_arg6) (by decide),
    user0_keep _ (r := main_arg7) (by decide),
    user1_keep _ (r := main_arg13) (by decide), item0_keep _ (r := main_arg13) (by decide), user0_keep _ (r := main_arg13) (by decide),
    user1_keep _ (r := main_arg14) (by decide), item0_keep _ (r := main_arg14) (by decide), user0_keep _ (r := main_arg14) (by decide),
    user1_keep _ (r := main_arg15) (by decide), item0_keep _ (r := main_arg15) (by decide), user0_keep _ (r := main_arg15) (by decide),
    user1_keep _ (r := main_arg8) (by decide), item0_keep _ (r := main_arg8) (by decide), user0_keep _ (r := main_arg8) (by decide),
    user1_keep _ (r := main_arg9) (by decide), item0_keep _ (r := main_arg9) (by decide), user0_keep _ (r := main_arg9) (by decide)]

/-- At the compiled mesh, for any float values, from any memory with zero counters: every weakly fair execution of @main
    terminates with the first result at the two user layers of the user array, the second at the two item layers of the item
    array — a layer being `dense ∘ spmm` with the side's graph and that layer's weight and bias — and every argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v80)
          = denseU (spmmU (denseU (spmmU (m ((c.tc : Thread nD τ).loc main_arg0)) (m ((c.tc : Thread nD τ).loc main_arg10)) (m ((c.tc : Thread nD τ).loc main_arg11)) (m ((c.tc : Thread nD τ).loc main_arg12)))
                  (m ((c.tc : Thread nD τ).loc main_arg2)) (m ((c.tc : Thread nD τ).loc main_arg3)))
                (m ((c.tc : Thread nD τ).loc main_arg10)) (m ((c.tc : Thread nD τ).loc main_arg11)) (m ((c.tc : Thread nD τ).loc main_arg12)))
              (m ((c.tc : Thread nD τ).loc main_arg4)) (m ((c.tc : Thread nD τ).loc main_arg5))
      ∧ r.2.mem ((c.tc : Thread nD τ).loc main_v107)
          = denseI (spmmI (denseI (spmmI (m ((c.tc : Thread nD τ).loc main_arg1)) (m ((c.tc : Thread nD τ).loc main_arg13)) (m ((c.tc : Thread nD τ).loc main_arg14)) (m ((c.tc : Thread nD τ).loc main_arg15)))
                  (m ((c.tc : Thread nD τ).loc main_arg6)) (m ((c.tc : Thread nD τ).loc main_arg7)))
                (m ((c.tc : Thread nD τ).loc main_arg13)) (m ((c.tc : Thread nD τ).loc main_arg14)) (m ((c.tc : Thread nD τ).loc main_arg15)))
              (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c =>
      ⟨(h c main_v80).trans (result0 _), (h c main_v107).trans (result1 _),
       (h c main_arg0).trans (ops_keep _ (by decide)),
       (h c main_arg1).trans (ops_keep _ (by decide)),
       (h c main_arg2).trans (ops_keep _ (by decide)),
       (h c main_arg3).trans (ops_keep _ (by decide)),
       (h c main_arg4).trans (ops_keep _ (by decide)),
       (h c main_arg5).trans (ops_keep _ (by decide)),
       (h c main_arg6).trans (ops_keep _ (by decide)),
       (h c main_arg7).trans (ops_keep _ (by decide)),
       (h c main_arg8).trans (ops_keep _ (by decide)),
       (h c main_arg9).trans (ops_keep _ (by decide)),
       (h c main_arg10).trans (ops_keep _ (by decide)),
       (h c main_arg11).trans (ops_keep _ (by decide)),
       (h c main_arg12).trans (ops_keep _ (by decide)),
       (h c main_arg13).trans (ops_keep _ (by decide)),
       (h c main_arg14).trans (ops_keep _ (by decide)),
       (h c main_arg15).trans (ops_keep _ (by decide))⟩)
    (run_main m ρ)

end Cert.ReferenceIdeal.RefRun

end
-- ==== Proof.RefDense.lean ====
/-
  The dense half of a layer as the reference computes it on whole arrays, read at an index: at `(r, q)` it is the
  row function of row `r` of the operand — the product with `Wᵀ` a sum over the 64 shared positions, the rectifier
  entry by entry, the norm a sum over the 64 entries of the rectified row.
-/
import proofs.«156571_j15977278341730_1_alg».proof.Proof.Gen.ReferenceIdeal
import proofs.«156571_j15977278341730_1_alg».proof.Proof.RefLayer
import proofs.«156571_j15977278341730_1_alg».proof.Proof.RowLayer
import proofs.«156571_j15977278341730_1_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.DenseValue

open Cert.ReferenceIdeal Cert.ReferenceIdeal.Layer Idealize.ShloMosaic Idealize.ShloMosaic.ValueIdx Idealize.SL.Sem
open Facts₀ Facts

/-! ## The host's pointwise quotient, square root and float sum at an index -/

theorem hostDivf_apply {s : Shape} {φ : FTy} (a b : FVec Ideal s φ) (i : s.Idx) : Host.divf a b i = Ideal.div (a i) (b i) := rfl

theorem hostSqrt_apply {s : Shape} {φ : FTy} (a : FVec Ideal s φ) (i : s.Idx) : Host.sqrt a i = Ideal.sqrt (a i) := rfl

theorem hostReduceAdd_apply {s t u : Shape} {axes : List (Fin s.rank)} {φ : FTy} (x : FVec Ideal s φ) (init : u.Idx → Ideal φ)
    (h : s.ReducesTo axes t) (hu : 0 < u.numel) (j : t.Idx) :
    Host.reduceAdd x init h hu j = Ideal.hostReduceAdd h x (init (Shape.Idx.first hu)) j := rfl

/-! ## The user side: 100000 rows -/

theorem dot_U_lhs0 (i : S100000x64.Idx) (k : dot_S100000x64_S64x64_S100000x64_1_0_0_1_n_n.contr.Idx) : (dot_S100000x64_S64x64_S100000x64_1_0_0_1_n_n.lhsIdx i k 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
theorem dot_U_lhs1 (i : S100000x64.Idx) (k : dot_S100000x64_S64x64_S100000x64_1_0_0_1_n_n.contr.Idx) : (dot_S100000x64_S64x64_S100000x64_1_0_0_1_n_n.lhsIdx i k 1).val = (k ⟨0, by decide⟩).val :=
  dot_S100000x64_S64x64_S100000x64_1_0_0_1_n_n.lhsIdx_val_of_single rfl i k
theorem dot_U_rhs0 (i : S100000x64.Idx) (k : dot_S100000x64_S64x64_S100000x64_1_0_0_1_n_n.contr.Idx) : (dot_S100000x64_S64x64_S100000x64_1_0_0_1_n_n.rhsIdx i k 0).val = (k ⟨0, by decide⟩).val :=
  dot_S100000x64_S64x64_S100000x64_1_0_0_1_n_n.rhsIdx_val_of_single rfl i k
theorem dot_U_rhs1 (i : S100000x64.Idx) (k : dot_S100000x64_S64x64_S100000x64_1_0_0_1_n_n.contr.Idx) : (dot_S100000x64_S64x64_S100000x64_1_0_0_1_n_n.rhsIdx i k 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

/-- The contraction of a row of the left operand with a column of the right one, as a sum over the 64 shared positions. -/
theorem dot_U (l : S100000x64.Idx → EReal) (r : S64x64.Idx → EReal) (p : Fin 100000) (q : Fin 64) :
    ∑ k : dot_S100000x64_S64x64_S100000x64_1_0_0_1_n_n.contr.Idx, l (dot_S100000x64_S64x64_S100000x64_1_0_0_1_n_n.lhsIdx (ix2 p q) k) * r (dot_S100000x64_S64x64_S100000x64_1_0_0_1_n_n.rhsIdx (ix2 p q) k)
      = ∑ k : Fin 64, l (ix2 p k) * r (ix2 k q) := by
  rw [← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 p q) ((contrEquiv1 dot_S100000x64_S64x64_S100000x64_1_0_0_1_n_n 64 rfl rfl).symm k) = ix2 p k := funext fun a => Fin.ext (by
    match a with
    | ⟨0, _⟩ => exact dot_U_lhs0 _ _
    | ⟨1, _⟩ => exact (dot_U_lhs1 _ _).trans hk)
  have er : dot_S100000x64_S64x64_S100000x64_1_0_0_1_n_n.rhsIdx (ix2 p q) ((contrEquiv1 dot_S100000x64_S64x64_S100000x64_1_0_0_1_n_n 64 rfl rfl).symm k) = ix2 k q := funext fun a => Fin.ext (by
    match a with
    | ⟨0, _⟩ => exact (dot_U_rhs0 _ _).trans hk
    | ⟨1, _⟩ => exact dot_U_rhs1 _ _)
  rw [el, er]

/-- `x · Wᵀ + b` at `(r, q)`: row `r` of `x` against row `q` of `W`, plus `b q`. -/
theorem affineU_apply (X : FVec Ideal S100000x64 .f32) (W : FVec Ideal S64x64 .f32) (b : FVec Ideal S64 .f32) (r : Fin 100000) (q : Fin 64) :
    affineU (F := Ideal) X W b (ix2 r q) = RowLayer.affine (fun k => X (ix2 r k)) W (fun k => b (ix1 k)) q := by
  unfold affineU RowLayer.affine
  rw [addf_apply]
  refine congrArg₂ (· + ·) ?_ ?_
  · unfold Host.dotGeneral
    refine (Ideal.dotGeneral_apply dot_S100000x64_S64x64_S100000x64_1_0_0_1_n_n none _ _ _ (ix2 r q)).trans ?_
    rw [dot_U]
    refine Finset.sum_congr rfl fun k _ => ?_
    rw [transpose_ix2_apply]
  · rw [LibLayout.broadcastInDim_1b_ab_apply, LibLayout.broadcastInDim_b_1b_apply]

/-- The rectifier at an index is the scalar rectifier of the entry there. -/
theorem leakyU_apply (y : FVec Ideal S100000x64 .f32) (i : S100000x64.Idx) : leakyU (F := Ideal) y i = RowLayer.leaky (y i) := rfl

/-- The row sum's shape fact in the form that names the inserted index. -/
theorem reduces_U : S100000x64.Reduces [1] S100000 := by decide

/-- The row sum's inserted index: position `k` of row `r`. -/
theorem liftU_eq (r : Fin 100000) (k : Fin 64) : reduces_U.lift (ix1 r) k = ix2 r k :=
  funext fun a => Fin.ext (by
    match a with
    | ⟨0, _⟩ => rfl
    | ⟨1, _⟩ => rfl)

/-- The normalisation at `(r, q)`: the entry divided by the scale of row `r`. -/
theorem normalizeU_apply (z : FVec Ideal S100000x64 .f32) (r : Fin 100000) (q : Fin 64) :
    normalizeU (F := Ideal) z (ix2 r q) = Ideal.div (z (ix2 r q)) (RowLayer.scale fun k => z (ix2 r k)) := by
  unfold normalizeU RowLayer.scale
  rw [hostDivf_apply]
  refine congrArg (Ideal.div _) ?_
  rw [LibLayout.broadcastInDim_a1_ab_apply, maximumf_apply]
  refine congrArg₂ max ?_ rfl
  rw [hostSqrt_apply, LibLayout.broadcastInDim_a_a1_apply, hostReduceAdd_apply]
  refine congrArg Ideal.sqrt ?_
  refine (Ideal.hostReduceAdd_single reducesTo_S100000x64_S100000_d1 reduces_U (mulf z z) _ (ix1 r)).trans ?_
  rw [constant_apply, Ideal.ofBits_zero_f32, zero_add]
  refine Finset.sum_congr rfl fun k _ => ?_
  exact congrArg (mulf z z) (liftU_eq r k)

/-- THE DENSE HALF OF A LAYER, whole-array form, is the row function applied to every row — with the bias read through
    its one-row reshape, as the kernel's window holds it. -/
theorem denseU_eq (X : FVec Ideal S100000x64 .f32) (W : FVec Ideal S64x64 .f32) (b : FVec Ideal S64 .f32)
    (h : (⟨1, ![64]⟩ : Shape).ShapeCasts ⟨2, ![1, 64]⟩) :
    denseU (F := Ideal) X W b = RowLayer.rowsU X W (shapeCast ⟨2, ![1, 64]⟩ b h) := by
  funext i
  obtain ⟨r, q, rfl⟩ : ∃ (r : Fin 100000) (q : Fin 64), i = ix2 r q := ⟨i 0, i 1, eq_ix2 i⟩
  have hb : (fun k : Fin 64 => shapeCast ⟨2, ![1, 64]⟩ b h (ix2 (0 : Fin 1) k)) = fun k => b (ix1 k) :=
    funext fun k => shapeCast_a_1a_apply b h 0 k
  rw [RowLayer.rowsU_apply, hb]
  unfold denseU RowLayer.row
  rw [normalizeU_apply]
  simp only [leakyU_apply, affineU_apply]

/-! ## The item side: 50000 rows -/

theorem dot_I_lhs0 (i : S50000x64.Idx) (k : dot_S50000x64_S64x64_S50000x64_1_0_0_1_n_n.contr.Idx) : (dot_S50000x64_S64x64_S50000x64_1_0_0_1_n_n.lhsIdx i k 0).val = (i 0).val := by
  unfold DotDims.lhsIdx
  rw [dif_neg (show ¬(0 : Fin S50000x64.rank) ∈ dot_S50000x64_S64x64_S50000x64_1_0_0_1_n_n.lhsBatch by decide), dif_pos (show (0 : Fin S50000x64.rank) ∈ dot_S50000x64_S64x64_S50000x64_1_0_0_1_n_n.lhsNonContracting by decide)]
  rfl
theorem dot_I_lhs1 (i : S50000x64.Idx) (k : dot_S50000x64_S64x64_S50000x64_1_0_0_1_n_n.contr.Idx) : (dot_S50000x64_S64x64_S50000x64_1_0_0_1_n_n.lhsIdx i k 1).val = (k ⟨0, by decide⟩).val :=
  dot_S50000x64_S64x64_S50000x64_1_0_0_1_n_n.lhsIdx_val_of_single rfl i k
theorem dot_I_rhs0 (i : S50000x64.Idx) (k : dot_S50000x64_S64x64_S50000x64_1_0_0_1_n_n.contr.Idx) : (dot_S50000x64_S64x64_S50000x64_1_0_0_1_n_n.rhsIdx i k 0).val = (k ⟨0, by decide⟩).val :=
  dot_S50000x64_S64x64_S50000x64_1_0_0_1_n_n.rhsIdx_val_of_single rfl i k
theorem dot_I_rhs1 (i : S50000x64.Idx) (k : dot_S50000x64_S64x64_S50000x64_1_0_0_1_n_n.contr.Idx) : (dot_S50000x64_S64x64_S50000x64_1_0_0_1_n_n.rhsIdx i k 1).val = (i 1).val := by
  unfold DotDims.rhsIdx
  rw [dif_neg (show ¬(1 : Fin S64x64.rank) ∈ dot_S50000x64_S64x64_S50000x64_1_0_0_1_n_n.rhsBatch by decide), dif_pos (show (1 : Fin S64x64.rank) ∈ dot_S50000x64_S64x64_S50000x64_1_0_0_1_n_n.rhsNonContracting by decide)]
  rfl

/-- The contraction of a row of the left operand with a column of the right one, as a sum over the 64 shared positions. -/
theorem dot_I (l : S50000x64.Idx → EReal) (r : S64x64.Idx → EReal) (p : Fin 50000) (q : Fin 64) :
    ∑ k : dot_S50000x64_S64x64_S50000x64_1_0_0_1_n_n.contr.Idx, l (dot_S50000x64_S64x64_S50000x64_1_0_0_1_n_n.lhsIdx (ix2 p q) k) * r (dot_S50000x64_S64x64_S50000x64_1_0_0_1_n_n.rhsIdx (ix2 p q) k)
      = ∑ k : Fin 64, l (ix2 p k) * r (ix2 k q) := by
  rw [← Equiv.sum_comp (contrEquiv1 dot_S50000x64_S64x64_S50000x64_1_0_0_1_n_n 64 rfl rfl).symm]
  refine Finset.sum_congr rfl fun k _ => ?_
  have hk := contrEquiv1_symm_val dot_S50000x64_S64x64_S50000x64_1_0_0_1_n_n 64 rfl rfl k
  have el : dot_S50000x64_S64x64_S50000x64_1_0_0_1_n_n.lhsIdx (ix2 p q) ((contrEquiv1 dot_S50000x64_S64x64_S50000x64_1_0_0_1_n_n 64 rfl rfl).symm k) = ix2 p k := funext fun a => Fin.ext (by
    match a with
    | ⟨0, _⟩ => exact dot_I_lhs0 _ _
    | ⟨1, _⟩ => exact (dot_I_lhs1 _ _).trans hk)
  have er : dot_S50000x64_S64x64_S50000x64_1_0_0_1_n_n.rhsIdx (ix2 p q) ((contrEquiv1 dot_S50000x64_S64x64_S50000x64_1_0_0_1_n_n 64 rfl rfl).symm k) = ix2 k q := funext fun a => Fin.ext (by
    match a with
    | ⟨0, _⟩ => exact (dot_I_rhs0 _ _).trans hk
    | ⟨1, _⟩ => exact dot_I_rhs1 _ _)
  rw [el, er]

/-- `x · Wᵀ + b` at `(r, q)`: row `r` of `x` against row `q` of `W`, plus `b q`. -/
theorem affineI_apply (X : FVec Ideal S50000x64 .f32) (W : FVec Ideal S64x64 .f32) (b : FVec Ideal S64 .f32) (r : Fin 50000) (q : Fin 64) :
    affineI (F := Ideal) X W b (ix2 r q) = RowLayer.affine (fun k => X (ix2 r k)) W (fun k => b (ix1 k)) q := by
  unfold affineI RowLayer.affine
  rw [addf_apply]
  refine congrArg₂ (· + ·) ?_ ?_
  · unfold Host.dotGeneral
    refine (Ideal.dotGeneral_apply dot_S50000x64_S64x64_S50000x64_1_0_0_1_n_n none _ _ _ (ix2 r q)).trans ?_
    rw [dot_I]
    refine Finset.sum_congr rfl fun k _ => ?_
    rw [transpose_ix2_apply]
  · rw [LibLayout.broadcastInDim_1b_ab_apply, LibLayout.broadcastInDim_b_1b_apply]

/-- The rectifier at an index is the scalar rectifier of the entry there. -/
theorem leakyI_apply (y : FVec Ideal S50000x64 .f32) (i : S50000x64.Idx) : leakyI (F := Ideal) y i = RowLayer.leaky (y i) := rfl

/-- The row sum's shape fact in the form that names the inserted index. -/
theorem reduces_I : S50000x64.Reduces [1] S50000 := by decide

/-- The row sum's inserted index: position `k` of row `r`. -/
theorem liftI_eq (r : Fin 50000) (k : Fin 64) : reduces_I.lift (ix1 r) k = ix2 r k :=
  funext fun a => Fin.ext (by
    match a with
    | ⟨0, _⟩ => rfl
    | ⟨1, _⟩ => rfl)

/-- The normalisation at `(r, q)`: the entry divided by the scale of row `r`. -/
theorem normalizeI_apply (z : FVec Ideal S50000x64 .f32) (r : Fin 50000) (q : Fin 64) :
    normalizeI (F := Ideal) z (ix2 r q) = Ideal.div (z (ix2 r q)) (RowLayer.scale fun k => z (ix2 r k)) := by
  unfold normalizeI RowLayer.scale
  rw [hostDivf_apply]
  refine congrArg (Ideal.div _) ?_
  rw [LibLayout.broadcastInDim_a1_ab_apply, maximumf_apply]
  refine congrArg₂ max ?_ rfl
  rw [hostSqrt_apply, LibLayout.broadcastInDim_a_a1_apply, hostReduceAdd_apply]
  refine congrArg Ideal.sqrt ?_
  refine (Ideal.hostReduceAdd_single reducesTo_S50000x64_S50000_d1 reduces_I (mulf z z) _ (ix1 r)).trans ?_
  rw [constant_apply, Ideal.ofBits_zero_f32, zero_add]
  refine Finset.sum_congr rfl fun k _ => ?_
  exact congrArg (mulf z z) (liftI_eq r k)

/-- THE DENSE HALF OF A LAYER, whole-array form, is the row function applied to every row — with the bias read through
    its one-row reshape, as the kernel's window holds it. -/
theorem denseI_eq (X : FVec Ideal S50000x64 .f32) (W : FVec Ideal S64x64 .f32) (b : FVec Ideal S64 .f32)
    (h : (⟨1, ![64]⟩ : Shape).ShapeCasts ⟨2, ![1, 64]⟩) :
    denseI (F := Ideal) X W b = RowLayer.rowsI X W (shapeCast ⟨2, ![1, 64]⟩ b h) := by
  funext i
  obtain ⟨r, q, rfl⟩ : ∃ (r : Fin 50000) (q : Fin 64), i = ix2 r q := ⟨i 0, i 1, eq_ix2 i⟩
  have hb : (fun k : Fin 64 => shapeCast ⟨2, ![1, 64]⟩ b h (ix2 (0 : Fin 1) k)) = fun k => b (ix1 k) :=
    funext fun k => shapeCast_a_1a_apply b h 0 k
  rw [RowLayer.rowsI_apply, hb]
  unfold denseI RowLayer.row
  rw [normalizeI_apply]
  simp only [leakyI_apply, affineI_apply]

end Cert.ReferenceIdeal.DenseValue

end
-- ==== Proof.lean ====
/-
  The kernel and the reference compute the same two arrays over the extended reals.

  Both programs run two graph-convolution layers on a user side (100000 rows, 1600000 edges) and an item side (50000
  rows, 800000 edges). A layer is a sparse product `out[r] = Σ_{e : rows e = r} vals e · x[cols e]` followed by a dense half
  applied to every row: `y = x · Wᵀ + b`, `z = y` where `y ≥ 0` and `f32(0.01) · y` elsewhere, and `z` divided by
  `max (√(Σ_k z_k²)) f32(1e-12)`. The sparse product is the same host computation in both programs. The dense half is a
  pipelined kernel over blocks of 10000 rows in one program and a chain of whole-array host operations in the other;
  at row `r` and column `q` both are one function of row `r` of the product, the weights and the bias (RowLayer.row):
  the kernel's matrix product into a zero accumulator and the host's contraction are the same sum over the 64 shared
  positions, the kernel's lane sum and the host's sum from zero the same sum over the 64 entries of the rectified row,
  and square root, maximum and quotient are the same exact operations on both sides. No algebraic law beyond that
  identification is used, so the finiteness of the inputs is never opened.

  The frames of the two kernel programs are the generated ones; the reference's frame is its run with the results
  dropped; the idealization rewrote no operation, so there is nothing to preserve.
-/
import proofs.«156571_j15977278341730_1_alg».proof.Defs
import proofs.«156571_j15977278341730_1_alg».proof.Proof.Gen.Kernel
import proofs.«156571_j15977278341730_1_alg».proof.Proof.Gen.Kernel.Skeleton
import proofs.«156571_j15977278341730_1_alg».proof.Proof.Gen.Kernel.Launch
import proofs.«156571_j15977278341730_1_alg».proof.Proof.Gen.Kernel.Points
import proofs.«156571_j15977278341730_1_alg».proof.Proof.Gen.Kernel.Frame
import proofs.«156571_j15977278341730_1_alg».proof.Proof.Gen.KernelIdeal
import proofs.«156571_j15977278341730_1_alg».proof.Proof.Gen.KernelIdeal.Skeleton
import proofs.«156571_j15977278341730_1_alg».proof.Proof.Gen.KernelIdeal.Launch
import proofs.«156571_j15977278341730_1_alg».proof.Proof.Gen.KernelIdeal.Points
import proofs.«156571_j15977278341730_1_alg».proof.Proof.Gen.KernelIdeal.Frame
import proofs.«156571_j15977278341730_1_alg».proof.Proof.Gen.ReferenceIdeal
import proofs.«156571_j15977278341730_1_alg».proof.Proof.Gen.Pre_finite_inputs
import proofs.«156571_j15977278341730_1_alg».proof.Proof.KValue
import proofs.«156571_j15977278341730_1_alg».proof.Proof.RefRun
import proofs.«156571_j15977278341730_1_alg».proof.Proof.RefDense
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the two results dropped. -/
theorem frame_ri : Cert.frame_ReferenceIdeal := fun m ρ _ =>
  (θ_run Cert.ReferenceIdeal.defs _ _).mono (fun _ h c => (h c).2.2) (Cert.ReferenceIdeal.RefRun.run (F := Ideal) m ρ)

/-- The idealization rewrote no operation. -/
theorem preserves : Cert.preserves_Kernel_KernelIdeal := trivial

/-- Both programs end with two layers over the embeddings: the kernel's by reading its buffers back through its
    segments, the reference's by its run; the dense halves agree row by row, the sparse products are one function. -/
theorem algebraic : Cert.algebraic_KernelIdeal_ReferenceIdeal := by
  intro m ρ m' ρ' _ hagree
  refine ⟨fun c => Cert.KernelIdeal.KValue.user2 m c, fun c => Cert.KernelIdeal.KValue.item2 m c,
    Cert.KernelIdeal.KValue.run m ρ, ?_⟩
  refine (θ_run Cert.ReferenceIdeal.defs _ _).mono (fun _ h c => ⟨(h c).1.trans ?_, (h c).2.1.trans ?_, (h c).2.2⟩)
    (Cert.ReferenceIdeal.RefRun.run (F := Ideal) m' ρ')
  · obtain ⟨e0, e1, e2, e3, e4, e5, e6, e7, e8, e9, e10, e11, e12, e13, e14, e15⟩ := hagree c
    rw [e0, e2, e3, e4, e5, e10, e11, e12,
      Cert.ReferenceIdeal.DenseValue.denseU_eq _ _ _ Cert.KernelIdeal.Facts₀.shapeCasts_S64_S1x64,
      Cert.ReferenceIdeal.DenseValue.denseU_eq _ _ _ Cert.KernelIdeal.Facts₀.shapeCasts_S64_S1x64]
    rfl
  · obtain ⟨e0, e1, e2, e3, e4, e5, e6, e7, e8, e9, e10, e11, e12, e13, e14, e15⟩ := hagree c
    rw [e1, e6, e7, e8, e9, e13, e14, e15,
      Cert.ReferenceIdeal.DenseValue.denseI_eq _ _ _ Cert.KernelIdeal.Facts₀.shapeCasts_S64_S1x64,
      Cert.ReferenceIdeal.DenseValue.denseI_eq _ _ _ Cert.KernelIdeal.Facts₀.shapeCasts_S64_S1x64]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
